-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v73)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S3x128x128 : Shape := ⟨3, ![3, 128, 128]⟩
abbrev S3x128 : Shape := ⟨2, ![3, 128]⟩
abbrev S384x64 : Shape := ⟨2, ![384, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S384x64 : S_.BroadcastsInDim S384x64 (![] : Fin 0 → Fin S384x64.rank)
  reducesTo_S384x64_S_d0_1 : S384x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S384x64 .f32) (main_arg6 : FVec F S64 .f32) (main_v13 : IVec S_ 1) (main_v16 : IVec S3x128 1) : IVec S_ 1 :=
  let main_c_5 : IVec S_ 1 := constantI S_ 1 1#1
  let main_v17 : IVec S_ 1 := (fun x v => Host.reduce IntOp.andi x v reducesTo_S3x128_S_d0_1 h_S_) main_v16 main_c_5
  let main_v18 : IVec S_ 1 := andi main_v13 main_v17
  let main_v19 : FVec F S384x64 .f32 := Host.absf main_arg5
  let main_cst_6 : FVec F S_ .f32 := constant S_ .f32 0x7F800000#32
  let main_v20 : FVec F S384x64 .f32 := broadcastInDim S384x64 ![] bcast_S_S384x64 main_cst_6
  let main_v21 : IVec S384x64 1 := cmpf .olt main_v19 main_v20
  let main_c_7 : IVec S_ 1 := constantI S_ 1 1#1
  let main_v22 : IVec S_ 1 := (fun x v => Host.reduce IntOp.andi x v reducesTo_S384x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S100000x128 .f32) (main_arg1 : IVec S2x1600000 32) (main_arg2 : FVec F S3x128x128 .f32) (main_arg3 : FVec F S3x128x128 .f32) (main_arg4 : FVec F S3x128 .f32) (main_arg5 : FVec F S384x64 .f32) (main_arg6 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S3x128x128 .f32 := Host.absf main_arg2
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128x128 .f32 := Host.absf main_arg3
  let main_cst_2 : FVec F S_ .f32 := constant S_ .f32 0x7F800000#32
  let main_v10 : FVec F S3x128x128 .f32 := broadcastInDim S3x128x128 ![] bcast_S_S3x128x128 main_cst_2
  let main_v11 : IVec S3x128x128 1 := cmpf .olt main_v9 main_v10
  let main_c_3 : IVec S_ 1 := constantI S_ 1 1#1
  let main_v12 : IVec S_ 1 := (fun x v => Host.reduce IntOp.andi x v reducesTo_S3x128x128_S_d0_1_2 h_S_) main_v11 main_c_3
  let main_v13 : IVec S_ 1 := andi main_v8 main_v12
  let main_v14 : FVec F S3x128 .f32 := Host.absf main_arg4
  let main_cst_4 : FVec F S_ .f32 := constant S_ .f32 0x7F800000#32
  let main_v15 : FVec F S3x128 .f32 := broadcastInDim S3x128 ![] bcast_S_S3x128 main_cst_4
  let main_v16 : IVec S3x128 1 := cmpf .olt main_v14 main_v15
  fn_part1 (F := F) main_arg5 main_arg6 main_v13 main_v16
-- ==== Kernel.lean ====
abbrev S100000x128 : Shape := ⟨2, ![100000, 128]⟩
abbrev S2x1600000 : Shape := ⟨2, ![2, 1600000]⟩
abbrev S3x128x128 : Shape := ⟨3, ![3, 128, 128]⟩
abbrev S3x128 : Shape := ⟨2, ![3, 128]⟩
abbrev S384x64 : Shape := ⟨2, ![384, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S5000x128 : Shape := ⟨2, ![5000, 128]⟩
abbrev S128x64 : Shape := ⟨2, ![128, 64]⟩
abbrev S100000x64 : Shape := ⟨2, ![100000, 64]⟩
abbrev S5000x64 : Shape := ⟨2, ![5000, 64]⟩
abbrev S1x64 : Shape := ⟨2, ![1, 64]⟩

abbrev nBuf : Space → Nat
  | .hbm => 94
  | .vmem => 39
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S3x128x128, .f32⟩
  | .hbm, ⟨3, _⟩ => ⟨S3x128x128, .f32⟩
  | .hbm, ⟨4, _⟩ => ⟨S3x128, .f32⟩
  | .hbm, ⟨5, _⟩ => ⟨S384x64, .f32⟩
  | .hbm, ⟨6, _⟩ => ⟨S64, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S_, .f32⟩
  | .hbm, ⟨12, _⟩ => ⟨S1600000, .f32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S100000x1, .f32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000x128, .f32⟩
  | .hbm, ⟨33, _⟩ => ⟨S_, .f32⟩
  | .hbm, ⟨34, _⟩ => ⟨S100000x128, .f32⟩
  | .hbm, ⟨35, _⟩ => ⟨S1600000x1, .i32⟩
  | .hbm, ⟨36, _⟩ => ⟨S100000x128, .f32⟩
  | .hbm, ⟨37, _⟩ => ⟨S100000x128, .f32⟩
  | .hbm, ⟨38, _⟩ => ⟨S100000x128, .f32⟩
  | .hbm, ⟨39, _⟩ => ⟨S1x128x128, .f32⟩
  | .hbm, ⟨40, _⟩ => ⟨S128x128, .f32⟩
  | .hbm, ⟨41, _⟩ => ⟨S1x128x128, .f32⟩
  | .hbm, ⟨42, _⟩ => ⟨S128x128, .f32⟩
  | .hbm, ⟨43, _⟩ => ⟨S1x128, .f32⟩
  | .hbm, ⟨44, _⟩ => ⟨S128, .f32⟩
  | .hbm, ⟨45, _⟩ => ⟨S100000x128, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x128, .f32⟩
  | .hbm, ⟨55, _⟩ => ⟨S_, .f32⟩
  | .hbm, ⟨56, _⟩ => ⟨S100000x128, .f32⟩
  | .hbm, ⟨57, _⟩ => ⟨S1600000x1, .i32⟩
  | .hbm, ⟨58, _⟩ => ⟨S100000x128, .f32⟩
  | .hbm, ⟨59, _⟩ => ⟨S100000x128, .f32⟩
  | .hbm, ⟨60, _⟩ => ⟨S100000x128, .f32⟩
  | .hbm, ⟨61, _⟩ => ⟨S1x128x128, .f32⟩
  | .hbm, ⟨62, _⟩ => ⟨S128x128, .f32⟩
  | .hbm, ⟨63, _⟩ => ⟨S1x128x128, .f32⟩
  | .hbm, ⟨64, _⟩ => ⟨S128x128, .f32⟩
  | .hbm, ⟨65, _⟩ => ⟨S1x128, .f32⟩
  | .hbm, ⟨66, _⟩ => ⟨S128, .f32⟩
  | .hbm, ⟨67, _⟩ => ⟨S100000x128, .f32⟩
  | .hbm, ⟨68, _⟩ => ⟨S_, .i32⟩
  | .hbm, ⟨69, _⟩ => ⟨S1600000, .i32⟩
  | .hbm, ⟨70, _⟩ => ⟨S1600000, .i1⟩
  | .hbm, ⟨71, _⟩ => ⟨S_, .i32⟩
  | .hbm, ⟨72, _⟩ => ⟨S1600000, .i32⟩
  | .hbm, ⟨73, _⟩ => ⟨S1600000, .i32⟩
  | .hbm, ⟨74, _⟩ => ⟨S1600000, .i32⟩
  | .hbm, ⟨75, _⟩ => ⟨S1600000x1, .i32⟩
  | .hbm, ⟨76, _⟩ => ⟨S1600000x128, .f32⟩
  | .hbm, ⟨77, _⟩ => ⟨S_, .f32⟩
  | .hbm, ⟨78, _⟩ => ⟨S100000x128, .f32⟩
  | .hbm, ⟨79, _⟩ => ⟨S1600000x1, .i32⟩
  | .hbm, ⟨80, _⟩ => ⟨S100000x128, .f32⟩
  | .hbm, ⟨81, _⟩ => ⟨S100000x128, .f32⟩
  | .hbm, ⟨82, _⟩ => ⟨S100000x128, .f32⟩
  | .hbm, ⟨83, _⟩ => ⟨S1x128x128, .f32⟩
  | .hbm, ⟨84, _⟩ => ⟨S128x128, .f32⟩
  | .hbm, ⟨85, _⟩ => ⟨S1x128x128, .f32⟩
  | .hbm, ⟨86, _⟩ => ⟨S128x128, .f32⟩
  | .hbm, ⟨87, _⟩ => ⟨S1x128, .f32⟩
  | .hbm, ⟨88, _⟩ => ⟨S128, .f32⟩
  | .hbm, ⟨89, _⟩ => ⟨S100000x128, .f32⟩
  | .hbm, ⟨90, _⟩ => ⟨S128x64, .f32⟩
  | .hbm, ⟨91, _⟩ => ⟨S128x64, .f32⟩
  | .hbm, ⟨92, _⟩ => ⟨S128x64, .f32⟩
  | .hbm, ⟨93, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S128x128, .f32⟩
  | .local _ .vmem, ⟨24, _⟩ => ⟨S128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S128x64, .f32⟩
  | .local _ .vmem, ⟨34, _⟩ => ⟨S128x64, .f32⟩
  | .local _ .vmem, ⟨35, _⟩ => ⟨S128x64, .f32⟩
  | .local _ .vmem, ⟨36, _⟩ => ⟨S64, .f32⟩
  | .local _ .vmem, ⟨37, _⟩ => ⟨S5000x64, .f32⟩
  | .local _ .vmem, ⟨38, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c : Ref sig .tc := ⟨.hbm, 24, rfl⟩
abbrev main_v13 : Ref sig .tc := ⟨.hbm, 25, rfl⟩
abbrev main_v14 : Ref sig .tc := ⟨.hbm, 26, rfl⟩
abbrev main_c_3 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_5 : Ref sig .tc := ⟨.hbm, 46, rfl⟩
abbrev main_v32 : Ref sig .tc := ⟨.hbm, 47, rfl⟩
abbrev main_v33 : Ref sig .tc := ⟨.hbm, 48, rfl⟩
abbrev main_c_6 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_7 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_c_8 : Ref sig .tc := ⟨.hbm, 68, rfl⟩
abbrev main_v51 : Ref sig .tc := ⟨.hbm, 69, rfl⟩
abbrev main_v52 : Ref sig .tc := ⟨.hbm, 70, rfl⟩
abbrev main_c_9 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_10 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg2_1 : Ref sig .tc := ⟨.vmem, 32, rfl⟩
abbrev cc3_stg3_0 : Ref sig .tc := ⟨.vmem, 33, rfl⟩
abbrev cc3_stg4_0 : Ref sig .tc := ⟨.vmem, 34, rfl⟩
abbrev cc3_stg5_0 : Ref sig .tc := ⟨.vmem, 35, rfl⟩
abbrev cc3_stg6_0 : Ref sig .tc := ⟨.vmem, 36, rfl⟩
abbrev cc3_stg7_0 : Ref sig .tc := ⟨.vmem, 37, rfl⟩
abbrev cc3_stg7_1 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem2_1 : DmaSem sig := 32
abbrev cc3_sem3_0 : DmaSem sig := 33
abbrev cc3_sem4_0 : DmaSem sig := 34
abbrev cc3_sem5_0 : DmaSem sig := 35
abbrev cc3_sem6_0 : DmaSem sig := 36
abbrev cc3_sem7_0 : DmaSem sig := 37
abbrev cc3_sem7_1 : DmaSem sig := 38

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S5000x64 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S128 : S128.ShapeCasts S128
  shapeCasts_S128_S1x128 : S128.ShapeCasts S1x128
  broadcasts_S1x128_S5000x128 : S1x128.Broadcasts S5000x128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  slices_S384x64_S128x64_0_0 : S384x64.Slices ![0, 0] S128x64
  slices_S384x64_S128x64_128_0 : S384x64.Slices ![128, 0] S128x64
  slices_S384x64_S128x64_256_0 : S384x64.Slices ![256, 0] S128x64
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128.size a ≤ S128.size a
  hwx2_4 : ∀ i : grid2.Coords, EltTy.bits .f32 = 32 ∨ (Rect.block (s := S128) S128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S100000x128.size a
  hwx2_5 : ∀ i : grid2.Coords, EltTy.bits .f32 = 32 ∨ (Rect.block (s := S100000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S100000x128.size a
  hwx3_1 : ∀ i : grid3.Coords, EltTy.bits .f32 = 32 ∨ (Rect.block (s := S100000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x64.size a ≤ S128x64.size a
  hwx3_3 : ∀ i : grid3.Coords, EltTy.bits .f32 = 32 ∨ (Rect.block (s := S128x64) S128x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x64.size a ≤ S128x64.size a
  hwx3_4 : ∀ i : grid3.Coords, EltTy.bits .f32 = 32 ∨ (Rect.block (s := S128x64) S128x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x64.size a ≤ S128x64.size a
  hwx3_5 : ∀ i : grid3.Coords, EltTy.bits .f32 = 32 ∨ (Rect.block (s := S128x64) S128x64.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S64.size a ≤ S64.size a
  hwx3_6 : ∀ i : grid3.Coords, EltTy.bits .f32 = 32 ∨ (Rect.block (s := S64) S64.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S5000x64.size a ≤ S100000x64.size a
  hwx3_7 : ∀ i : grid3.Coords, EltTy.bits .f32 = 32 ∨ (Rect.block (s := S100000x64) S5000x64.size (cc3_transform_7 i) (hinb3_7 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v24) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v26) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v28) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v30) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v31) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v45) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v49) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v50) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v62) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v50) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v64) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v66) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v68) S128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v69) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v31) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v50) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v69) S5000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v70) S128x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v71) S128x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v72) S128x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_arg6) S64.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v73) S5000x64.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S3x128x128 : Shape := ⟨3, ![3, 128, 128]⟩
abbrev S3x128 : Shape := ⟨2, ![3, 128]⟩
abbrev S384x64 : Shape := ⟨2, ![384, 64]⟩
abbrev S64 : Shape := ⟨1, ![64]⟩
abbrev S1x1600000 : Shape := ⟨2, ![1, 1600000]⟩
abbrev S1600000 : Shape := ⟨1, ![1600000]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S100000x384 : Shape := ⟨2, ![100000, 384]⟩
abbrev S100000x64 : Shape := ⟨2, ![100000, 64]⟩
abbrev S1x64 : Shape := ⟨2, ![1, 64]⟩

abbrev nBuf : Space → Nat
  | .hbm => 136
  | .vmem => 0
  | .smem => 0
  | _ => 0

abbrev hbmTy0_0 (i : Nat) : BufTy := match i % 128 with
  | 0 => ⟨S100000x128, .f32⟩
  | 1 => ⟨S2x1600000, .i32⟩
  | 2 => ⟨S3x128x128, .f32⟩
  | 3 => ⟨S3x128x128, .f32⟩
  | 4 => ⟨S3x128, .f32⟩
  | 5 => ⟨S384x64, .f32⟩
  | 6 => ⟨S64, .f32⟩
  | 7 => ⟨S1x1600000, .i32⟩
  | 8 => ⟨S1600000, .i32⟩
  | 9 => ⟨S1x1600000, .i32⟩
  | 10 => ⟨S1600000, .i32⟩
  | 11 => ⟨S1x128x128, .f32⟩
  | 12 => ⟨S128x128, .f32⟩
  | 13 => ⟨S1x128x128, .f32⟩
  | 14 => ⟨S128x128, .f32⟩
  | 15 => ⟨S1x128, .f32⟩
  | 16 => ⟨S128, .f32⟩
  | 17 => ⟨S_, .i32⟩
  | 18 => ⟨S1600000, .i32⟩
  | 19 => ⟨S1600000, .i1⟩
  | 20 => ⟨S_, .i32⟩
  | 21 => ⟨S1600000, .i32⟩
  | 22 => ⟨S1600000, .i32⟩
  | 23 => ⟨S1600000, .i32⟩
  | 24 => ⟨S1600000x1, .i32⟩
  | 25 => ⟨S1600000x128, .f32⟩
  | 26 => ⟨S_, .f32⟩
  | 27 => ⟨S100000x128, .f32⟩
  | 28 => ⟨S1600000x1, .i32⟩
  | 29 => ⟨S100000x128, .f32⟩
  | 30 => ⟨S_, .f32⟩
  | 31 => ⟨S1600000, .f32⟩
  | 32 => ⟨S_, .f32⟩
  | 33 => ⟨S100000, .f32⟩
  | 34 => ⟨S1600000x1, .i32⟩
  | 35 => ⟨S100000, .f32⟩
  | 36 => ⟨S_, .f32⟩
  | 37 => ⟨S100000, .f32⟩
  | 38 => ⟨S100000, .f32⟩
  | 39 => ⟨S100000x1, .f32⟩
  | 40 => ⟨S100000x128, .f32⟩
  | 41 => ⟨S100000x128, .f32⟩
  | 42 => ⟨S100000x128, .f32⟩
  | 43 => ⟨S100000x128, .f32⟩
  | 44 => ⟨S100000x128, .f32⟩
  | 45 => ⟨S1x128, .f32⟩
  | 46 => ⟨S100000x128, .f32⟩
  | 47 => ⟨S100000x128, .f32⟩
  | 48 => ⟨S_, .f32⟩
  | 49 => ⟨S100000x128, .f32⟩
  | 50 => ⟨S100000x128, .f32⟩
  | 51 => ⟨S1x128x128, .f32⟩
  | 52 => ⟨S128x128, .f32⟩
  | 53 => ⟨S1x128x128, .f32⟩
  | 54 => ⟨S128x128, .f32⟩
  | 55 => ⟨S1x128, .f32⟩
  | 56 => ⟨S128, .f32⟩
  | 57 => ⟨S_, .i32⟩
  | 58 => ⟨S1600000, .i32⟩
  | 59 => ⟨S1600000, .i1⟩
  | 60 => ⟨S_, .i32⟩
  | 61 => ⟨S1600000, .i32⟩
  | 62 => ⟨S1600000, .i32⟩
  | 63 => ⟨S1600000, .i32⟩
  | 64 => ⟨S1600000x1, .i32⟩
  | 65 => ⟨S1600000x128, .f32⟩
  | 66 => ⟨S_, .f32⟩
  | 67 => ⟨S100000x128, .f32⟩
  | 68 => ⟨S1600000x1, .i32⟩
  | 69 => ⟨S100000x128, .f32⟩
  | 70 => ⟨S_, .f32⟩
  | 71 => ⟨S1600000, .f32⟩
  | 72 => ⟨S_, .f32⟩
  | 73 => ⟨S100000, .f32⟩
  | 74 => ⟨S1600000x1, .i32⟩
  | 75 => ⟨S100000, .f32⟩
  | 76 => ⟨S_, .f32⟩
  | 77 => ⟨S100000, .f32⟩
  | 78 => ⟨S100000, .f32⟩
  | 79 => ⟨S100000x1, .f32⟩
  | 80 => ⟨S100000x128, .f32⟩
  | 81 => ⟨S100000x128, .f32⟩
  | 82 => ⟨S100000x128, .f32⟩
  | 83 => ⟨S100000x128, .f32⟩
  | 84 => ⟨S100000x128, .f32⟩
  | 85 => ⟨S1x128, .f32⟩
  | 86 => ⟨S100000x128, .f32⟩
  | 87 => ⟨S100000x128, .f32⟩
  | 88 => ⟨S_, .f32⟩
  | 89 => ⟨S100000x128, .f32⟩
  | 90 => ⟨S100000x128, .f32⟩
  | 91 => ⟨S1x128x128, .f32⟩
  | 92 => ⟨S128x128, .f32⟩
  | 93 => ⟨S1x128x128, .f32⟩
  | 94 => ⟨S128x128, .f32⟩
  | 95 => ⟨S1x128, .f32⟩
  | 96 => ⟨S128, .f32⟩
  | 97 => ⟨S_, .i32⟩
  | 98 => ⟨S1600000, .i32⟩
  | 99 => ⟨S1600000, .i1⟩
  | 100 => ⟨S_, .i32⟩
  | 101 => ⟨S1600000, .i32⟩
  | 102 => ⟨S1600000, .i32⟩
  | 103 => ⟨S1600000, .i32⟩
  | 104 => ⟨S1600000x1, .i32⟩
  | 105 => ⟨S1600000x128, .f32⟩
  | 106 => ⟨S_, .f32⟩
  | 107 => ⟨S100000x128, .f32⟩
  | 108 => ⟨S1600000x1, .i32⟩
  | 109 => ⟨S100000x128, .f32⟩
  | 110 => ⟨S_, .f32⟩
  | 111 => ⟨S1600000, .f32⟩
  | 112 => ⟨S_, .f32⟩
  | 113 => ⟨S100000, .f32⟩
  | 114 => ⟨S1600000x1, .i32⟩
  | 115 => ⟨S100000, .f32⟩
  | 116 => ⟨S_, .f32⟩
  | 117 => ⟨S100000, .f32⟩
  | 118 => ⟨S100000, .f32⟩
  | 119 => ⟨S100000x1, .f32⟩
  | 120 => ⟨S100000x128, .f32⟩
  | 121 => ⟨S100000x128, .f32⟩
  | 122 => ⟨S100000x128, .f32⟩
  | 123 => ⟨S100000x128, .f32⟩
  | 124 => ⟨S100000x128, .f32⟩
  | 125 => ⟨S1x128, .f32⟩
  | 126 => ⟨S100000x128, .f32⟩
  | 127 => ⟨S100000x128, .f32⟩
  | _ => ⟨S100000x128, .f32⟩

abbrev hbmTy0_1 (i : Nat) : BufTy := match i % 128 with
  | 0 => ⟨S_, .f32⟩
  | 1 => ⟨S100000x128, .f32⟩
  | 2 => ⟨S100000x128, .f32⟩
  | 3 => ⟨S100000x384, .f32⟩
  | 4 => ⟨S100000x64, .f32⟩
  | 5 => ⟨S1x64, .f32⟩
  | 6 => ⟨S100000x64, .f32⟩
  | 7 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c : Ref sig .tc := ⟨.hbm, 17, rfl⟩
abbrev main_v10 : Ref sig .tc := ⟨.hbm, 18, rfl⟩
abbrev main_v11 : Ref sig .tc := ⟨.hbm, 19, rfl⟩
abbrev main_c_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_call0_cst : Ref sig .tc := ⟨.hbm, 48, rfl⟩
abbrev main_call0_v0 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_c_4 : Ref sig .tc := ⟨.hbm, 57, rfl⟩
abbrev main_v42 : Ref sig .tc := ⟨.hbm, 58, rfl⟩
abbrev main_v43 : Ref sig .tc := ⟨.hbm, 59, rfl⟩
abbrev main_c_5 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_6 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_7 : Ref sig .tc := ⟨.hbm, 70, rfl⟩
abbrev main_v52 : Ref sig .tc := ⟨.hbm, 71, rfl⟩
abbrev main_cst_8 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_9 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_call1_cst : Ref sig .tc := ⟨.hbm, 88, rfl⟩
abbrev main_call1_v0 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_c_10 : Ref sig .tc := ⟨.hbm, 97, rfl⟩
abbrev main_v74 : Ref sig .tc := ⟨.hbm, 98, rfl⟩
abbrev main_v75 : Ref sig .tc := ⟨.hbm, 99, rfl⟩
abbrev main_c_11 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_cst_12 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_cst_13 : Ref sig .tc := ⟨.hbm, 110, rfl⟩
abbrev main_v84 : Ref sig .tc := ⟨.hbm, 111, rfl⟩
abbrev main_cst_14 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_cst_15 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_call2_cst : Ref sig .tc := ⟨.hbm, 128, rfl⟩
abbrev main_call2_v0 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  concatenates_S100000x128_S100000x128_S100000x128_S100000x384_d1 : Shape.Concatenates [S100000x128, S100000x128, S100000x128] S100000x384 1
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  dot_S100000x384_S384x64_S100000x64_1_0_0_1_n_n_wf : DotDims.WF S100000x384 S384x64 S100000x64 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x384_S384x64_S100000x64_1_0_0_1_n_n : DotDims S100000x384 S384x64 S100000x64 where
  lhsContracting := [1]
  rhsContracting := [0]
  lhsNonContracting := [0]
  rhsNonContracting := [1]
  lhsBatch := []
  rhsBatch := []
  wf := dot_S100000x384_S384x64_S100000x64_1_0_0_1_n_n_wf

class Facts : Prop extends Facts₀ where

variable [Facts]
-- ==== Proof.SageRun.lean ====
/-
  The kernel program's run with its result named.

  The program is eight segments: four stretches of host operations, each followed by one kernel region.  The contents of
  every buffer at each segment boundary are a fold from the launch memory (a host stretch applies its operations; a
  region leaves its arrays at what its write-backs leave and every other buffer alone).  Every weakly fair execution
  terminates without a fault in a state whose unscoped buffers hold the last boundary's contents; read at the result
  buffer and at the seven argument buffers, that is the post below.
-/
import proofs.«174320_j8134668058764_1_alg».proof.Proof.Gen.KernelIdeal.Frame

set_option maxRecDepth 16384

noncomputable section

namespace Cert.Sage.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates, nothing faulting, with the result buffer at the last
    boundary's contents and the arguments as launched. -/
theorem run_value : θ_run defs (onTc (τ := τ) (main (F := F))) ⟨m, fun _ => 0, ρ⟩ (fun r => ∀ c : Dev nD,
      r.2.mem ((c.tc : Thread nD τ).loc main_v73) = W8 m ρ c (Proc.devRef .tc main_v73)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v73 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c)⟩)

end Cert.Sage.Run

end
-- ==== Proof.SageSpec.lean ====
/-
  One GraphSAGE layer and the final linear read-out, entry by entry over the extended reals.

  A layer takes the aggregated neighbour means `mean` and the node features `h` (both n rows of 128), two 128 × 128
  weights and a bias, and gives at row p, column q

      max ( Σ_k mean(p,k)·wl(k,q) + Σ_k h(p,k)·wr(k,q) + b(q) , 0 ).

  The read-out takes the three layers' outputs, three 128 × 64 weights and a bias and gives at (p, q)

      Σ_k l0(p,k)·w0(k,q) + Σ_k l1(p,k)·w1(k,q) + Σ_k l2(p,k)·w2(k,q) + b(q).

  Both are row-wise: row p of the result depends on row p of the row-indexed operands only, which is why a block of
  rows of the result is the same function of the corresponding blocks of rows.  The zero of the rectifier is kept as
  the float word it is printed as; it is the same word on both sides of every comparison and is never evaluated.
-/
import Idealize.ShloMosaic.Lib.ValueIdx
import Idealize.ShloMosaic.PureOps.Ideal
import Mathlib.Algebra.BigOperators.Fin

noncomputable section

namespace Cert.Sage

open Idealize.ShloMosaic Idealize.ShloMosaic.ValueIdx

/-- A matrix of extended reals with n rows and w columns. -/
abbrev Mat (n w : Nat) : Type := (⟨2, ![n, w]⟩ : Shape).Idx → EReal
/-- A vector of n extended reals. -/
abbrev Vc (n : Nat) : Type := (⟨1, ![n]⟩ : Shape).Idx → EReal

/-- The rectifier's zero, as the float word it is printed as. -/
abbrev zeroWord : EReal := Ideal.ofBits .f32 0x00000000#32

/-- One layer's output at row p, column q. -/
def layerAt {n : Nat} (mean h : Mat n 128) (wl wr : Mat 128 128) (b : Vc 128) (p : Fin n) (q : Fin 128) : EReal :=
  max ((∑ k : Fin 128, mean (ix2 p k) * wl (ix2 k q)) + (∑ k : Fin 128, h (ix2 p k) * wr (ix2 k q)) + b (ix1 q)) zeroWord

/-- One layer's output, as an array. -/
def layer {n : Nat} (mean h : Mat n 128) (wl wr : Mat 128 128) (b : Vc 128) : Mat n 128 :=
  fun i => layerAt mean h wl wr b (i 0) (i 1)

theorem layer_apply {n : Nat} (mean h : Mat n 128) (wl wr : Mat 128 128) (b : Vc 128) (p : Fin n) (q : Fin 128) :
    layer mean h wl wr b (ix2 p q) = layerAt mean h wl wr b p q := rfl

/-- The read-out at row p, column q. -/
def fcAt {n : Nat} (l0 l1 l2 : Mat n 128) (w0 w1 w2 : Mat 128 64) (b : Vc 64) (p : Fin n) (q : Fin 64) : EReal :=
  (∑ k : Fin 128, l0 (ix2 p k) * w0 (ix2 k q)) + (∑ k : Fin 128, l1 (ix2 p k) * w1 (ix2 k q))
    + (∑ k : Fin 128, l2 (ix2 p k) * w2 (ix2 k q)) + b (ix1 q)

/-- The read-out, as an array. -/
def fc {n : Nat} (l0 l1 l2 : Mat n 128) (w0 w1 w2 : Mat 128 64) (b : Vc 64) : Mat n 64 :=
  fun i => fcAt l0 l1 l2 w0 w1 w2 b (i 0) (i 1)

theorem fc_apply {n : Nat} (l0 l1 l2 : Mat n 128) (w0 w1 w2 : Mat 128 64) (b : Vc 64) (p : Fin n) (q : Fin 64) :
    fc l0 l1 l2 w0 w1 w2 b (ix2 p q) = fcAt l0 l1 l2 w0 w1 w2 b p q := rfl

/-- A layer's entry depends only on row p of the row-indexed operands, column q of the weights and entry q of the bias. -/
theorem layerAt_congr {n N : Nat} (x0 x1 : Mat n 128) (A0 A1 : Mat N 128) (wl wr wl' wr' : Mat 128 128) (b b' : Vc 128)
    (p : Fin n) (P : Fin N) (q : Fin 128)
    (h0 : ∀ k, x0 (ix2 p k) = A0 (ix2 P k)) (h1 : ∀ k, x1 (ix2 p k) = A1 (ix2 P k))
    (h2 : ∀ k, wl (ix2 k q) = wl' (ix2 k q)) (h3 : ∀ k, wr (ix2 k q) = wr' (ix2 k q)) (h4 : b (ix1 q) = b' (ix1 q)) :
    layerAt x0 x1 wl wr b p q = layerAt A0 A1 wl' wr' b' P q := by
  unfold layerAt
  simp only [h0, h1, h2, h3, h4]

/-- The read-out's entry depends only on row p of the three layer outputs, column q of the weights and entry q of the bias. -/
theorem fcAt_congr {n N : Nat} (x0 x1 x2 : Mat n 128) (A0 A1 A2 : Mat N 128) (w0 w1 w2 w0' w1' w2' : Mat 128 64) (b b' : Vc 64)
    (p : Fin n) (P : Fin N) (q : Fin 64)
    (h0 : ∀ k, x0 (ix2 p k) = A0 (ix2 P k)) (h1 : ∀ k, x1 (ix2 p k) = A1 (ix2 P k)) (h2 : ∀ k, x2 (ix2 p k) = A2 (ix2 P k))
    (h3 : ∀ k, w0 (ix2 k q) = w0' (ix2 k q)) (h4 : ∀ k, w1 (ix2 k q) = w1' (ix2 k q)) (h5 : ∀ k, w2 (ix2 k q) = w2' (ix2 k q))
    (h6 : b (ix1 q) = b' (ix1 q)) :
    fcAt x0 x1 x2 w0 w1 w2 b p q = fcAt A0 A1 A2 w0' w1' w2' b' P q := by
  unfold fcAt
  simp only [h0, h1, h2, h3, h4, h5, h6]

/-- A sum over 384 = 128 + 128 + 128 positions is the sum of its three bands of 128. -/
theorem sum_three_bands {M : Type*} [AddCommMonoid M] (f : Fin 384 → M) :
    ∑ k, f k = (∑ k : Fin 128, f ⟨k.val, by have := k.isLt; omega⟩)
      + (∑ k : Fin 128, f ⟨128 + k.val, by have := k.isLt; omega⟩)
      + (∑ k : Fin 128, f ⟨256 + k.val, by have := k.isLt; omega⟩) := by
  have e : ∑ k : Fin 384, f k = ∑ k : Fin (128 + 128 + 128), f ⟨k.val, k.isLt⟩ := rfl
  rw [e, Fin.sum_univ_add, Fin.sum_univ_add]
  rfl

end Cert.Sage

end
-- ==== Proof.LibRecipQuotient.lean ====
/-
  The product with a reciprocal is the quotient, off a zero divisor.

  Over the extended reals the quotient `p / M` by a nonzero `M` is `p · M⁻¹`, and the reciprocal `1 / M` — the float word
  1.0 divided by `M` — is `1 · M⁻¹ = M⁻¹`.  So `p · (1 / M) = p / M` for every `p`, finite or not, whenever `M ≠ 0`
  (an infinite `M` included: its inverse is 0 on both sides).
-/
import Idealize.ShloMosaic.PureOps.Ideal.Laws
import Idealize.ShloMosaic.Lib.IdealHost

noncomputable section

namespace Cert.Lib.RecipQuotient

open Idealize.ShloMosaic

/-- `p · (1.0 / M) = p / M` when `M ≠ 0`. -/
theorem mul_recip_eq_div (p M : EReal) (hM : M ≠ 0) :
    p * Ideal.div (Ideal.ofBits .f32 0x3F800000#32) M = Ideal.div p M := by
  unfold Ideal.div
  rw [if_neg hM, if_neg hM, Ideal.ofBits_one_f32, one_mul]

end Cert.Lib.RecipQuotient

end
-- ==== Proof.LibColumnScale.lean ====
/-
  A per-row scalar spread over the columns of a matrix, and scaling by a reciprocal against dividing.

  A vector [n] broadcast to a column [n, 1] and then across to [n, w] reads, at (p, k), the vector's entry p.  So
  multiplying an [n, w] array entrywise by the spread-out reciprocals 1.0 / M is dividing it entrywise by the spread-out
  M, wherever no entry of M is zero: over the extended reals  g · (1 / M) = g / M  for every g when M ≠ 0.
-/
import Idealize.ShloMosaic.Lib.ValueIdx
import Idealize.ShloMosaic.Lib.Pipeline.Value
import Idealize.ShloMosaic.PureOps.Ideal.Laws
import proofs.«174320_j8134668058764_1_alg».proof.Proof.LibRecipQuotient

noncomputable section

namespace Cert.Lib.ColumnScale

open Idealize.ShloMosaic Idealize.ShloMosaic.ValueIdx

/-- A vector made a column and spread across w columns, read at (p, k), is the vector at p. -/
theorem spread_apply {α : Type} {n w : Nat} (v : (⟨1, ![n]⟩ : Shape).Idx → α)
    (h1 : (⟨1, ![n]⟩ : Shape).BroadcastsInDim ⟨2, ![n, 1]⟩ ![0])
    (h2 : (⟨2, ![n, 1]⟩ : Shape).BroadcastsInDim ⟨2, ![n, w]⟩ ![0, 1]) (p : Fin n) (k : Fin w) :
    broadcastInDim ⟨2, ![n, w]⟩ ![0, 1] h2 (broadcastInDim ⟨2, ![n, 1]⟩ ![0] h1 v) (ix2 p k) = v (ix1 p) := by
  refine (broadcastInDim_apply _ h2 _ (ix2 p k) (ix2 p (0 : Fin 1)) fun a => ?_).trans
    (broadcastInDim_apply _ h1 v (ix2 p (0 : Fin 1)) (ix1 p) fun a => ?_)
  · match a with
    | ⟨0, _⟩ =>
      show p.val = if n = 1 then 0 else p.val
      split
      · have := p.isLt; omega
      · rfl
    | ⟨1, _⟩ => show 0 = if (1 : Nat) = 1 then 0 else k.val; rw [if_pos rfl]
  · match a with
    | ⟨0, _⟩ =>
      show p.val = if n = 1 then 0 else p.val
      split
      · have := p.isLt; omega
      · rfl

/-- Scaling row p by the reciprocal 1.0 / M p is dividing it by M p, when M p ≠ 0. -/
theorem scale_recip_eq_div {n w : Nat} (g : FVec Ideal ⟨2, ![n, w]⟩ .f32) (one M : FVec Ideal ⟨1, ![n]⟩ .f32)
    (hone : ∀ i, one i = Ideal.ofBits .f32 0x3F800000#32)
    (h1 : (⟨1, ![n]⟩ : Shape).BroadcastsInDim ⟨2, ![n, 1]⟩ ![0])
    (h2 : (⟨2, ![n, 1]⟩ : Shape).BroadcastsInDim ⟨2, ![n, w]⟩ ![0, 1]) (p : Fin n) (k : Fin w)
    (hM : M (ix1 p) ≠ 0) :
    mulf g (broadcastInDim ⟨2, ![n, w]⟩ ![0, 1] h2 (broadcastInDim ⟨2, ![n, 1]⟩ ![0] h1 (Host.divf (F := Ideal) one M))) (ix2 p k)
      = Host.divf (F := Ideal) g (broadcastInDim ⟨2, ![n, w]⟩ ![0, 1] h2 (broadcastInDim ⟨2, ![n, 1]⟩ ![0] h1 M)) (ix2 p k) := by
  show g (ix2 p k) * _ = Ideal.div (g (ix2 p k)) _
  rw [spread_apply, spread_apply]
  show g (ix2 p k) * Ideal.div (one (ix1 p)) (M (ix1 p)) = _
  rw [hone]
  exact Cert.Lib.RecipQuotient.mul_recip_eq_div _ _ hM

end Cert.Lib.ColumnScale

end
-- ==== Proof.SageShared.lean ====
/-
  The host-side pieces the layers are fed with, each as one function of the input arrays.

  The edge list gives a source row and a destination row per edge.  A layer's aggregate at node n is the sum, over the
  edges whose destination is n, of the feature row of the edge's source (a gather of rows followed by an accumulating
  scatter into zeros); the in-degree is the same accumulation of ones; the mean is the aggregate over max(degree, 1).
  The mean is written in two ways — the aggregate TIMES the reciprocal 1/max(degree, 1), and the aggregate DIVIDED by
  max(degree, 1) — and the two agree at every entry because max(degree, 1) ≥ 1 is never zero: over the extended reals
  g · (1/M) = g / M for every g as soon as M ≠ 0.  Neither the gather nor the scatter is ever opened: both ways of
  writing the mean share them as one array.

  The per-layer weights are slices of the stacked weights, re-laid without their unit axis; the read-out's three
  weights are the three bands of 128 rows of the stacked read-out weight.
-/
import proofs.«174320_j8134668058764_1_alg».proof.KernelIdeal
import proofs.«174320_j8134668058764_1_alg».proof.Proof.SageSpec
import proofs.«174320_j8134668058764_1_alg».proof.Proof.LibColumnScale
import Idealize.ShloMosaic.PureOps.Ideal.Laws

noncomputable section

namespace Cert.Sage

open Idealize.ShloMosaic Idealize.ShloMosaic.ValueIdx
open Cert.KernelIdeal Cert.KernelIdeal.Facts₀

variable [Cert.KernelIdeal.Facts]

/-- The edges' source rows. -/
def src (ei : IVec S2x1600000 32) : IVec S1600000 32 :=
  shapeCast S1600000 (extractStridedSlice S1x1600000 ![0, 0] ei slices_S2x1600000_S1x1600000_0_0) shapeCasts_S1x1600000_S1600000

/-- The edges' destination rows. -/
def dst (ei : IVec S2x1600000 32) : IVec S1600000 32 :=
  shapeCast S1600000 (extractStridedSlice S1x1600000 ![1, 0] ei slices_S2x1600000_S1x1600000_1_0) shapeCasts_S1x1600000_S1600000

/-- Source rows as the gather's index column: a negative row counted from the end. -/
def srcColOf (s : IVec S1600000 32) : IVec S1600000x1 32 :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 100000#32))) s)

/-- Destination rows as the scatter's index column. -/
def dstColOf (d : IVec S1600000 32) : IVec S1600000x1 32 :=
  broadcastInDim S1600000x1 ![0] bcast_S1600000_S1600000x1_0 d

/-- The aggregate over given source and destination rows: node n's row is the sum of the source rows of the edges
    arriving at n. -/
def aggOf (h : FVec Ideal S100000x128 .f32) (s d : IVec S1600000 32) : FVec Ideal S100000x128 .f32 :=
  Host.scatterAdd (F := Ideal) scatter_S100000x128_S1600000x1_S1600000x128_1_0_0_1
    (broadcastInDim S100000x128 ![] bcast_S_S100000x128 (constant (F := Ideal) S_ .f32 0x00000000#32)) (dstColOf d)
    (Host.gather gather_S100000x128_S1600000x1_S1600000x128_1_0_n_n_0_1_1128 h (srcColOf s))

/-- The aggregate scaled row by row by a given column. -/
def meanOf (h : FVec Ideal S100000x128 .f32) (s d : IVec S1600000 32) (r : FVec Ideal S100000x1 .f32) :
    FVec Ideal S100000x128 .f32 :=
  mulf (aggOf h s d) (broadcastInDim S100000x128 ![0, 1] bcast_S100000x1_S100000x128_0_1 r)

/-- The all-ones vector over the nodes. -/
def ones : FVec Ideal S100000 .f32 := broadcastInDim S100000 ![] bcast_S_S100000 (constant (F := Ideal) S_ .f32 0x3F800000#32)

/-- The in-degree per node: the accumulation of a one per arriving edge. -/
def deg (ei : IVec S2x1600000 32) : FVec Ideal S100000 .f32 :=
  Host.scatterAdd (F := Ideal) scatter_S100000_S1600000x1_S1600000_n_0_0_1
    (broadcastInDim S100000 ![] bcast_S_S100000 (constant (F := Ideal) S_ .f32 0x00000000#32)) (dstColOf (dst ei))
    (broadcastInDim S1600000 ![] bcast_S_S1600000 (constant (F := Ideal) S_ .f32 0x3F800000#32))

/-- max(in-degree, 1) per node. -/
def degM (ei : IVec S2x1600000 32) : FVec Ideal S100000 .f32 := maximumf (deg ei) ones

/-- The reciprocals 1 / max(in-degree, 1), as a column. -/
def recipCol (ei : IVec S2x1600000 32) : FVec Ideal S100000x1 .f32 :=
  broadcastInDim S100000x1 ![0] bcast_S100000_S100000x1_0 (Host.divf (F := Ideal) ones (degM ei))

/-- The mean, written as the aggregate times the reciprocal of max(degree, 1). -/
def meanMul (h : FVec Ideal S100000x128 .f32) (ei : IVec S2x1600000 32) : FVec Ideal S100000x128 .f32 :=
  meanOf h (src ei) (dst ei) (recipCol ei)

/-- The mean, written as the aggregate divided by max(degree, 1). -/
def meanDiv (h : FVec Ideal S100000x128 .f32) (ei : IVec S2x1600000 32) : FVec Ideal S100000x128 .f32 :=
  Host.divf (F := Ideal) (aggOf h (src ei) (dst ei)) (broadcastInDim S100000x128 ![0, 1] bcast_S100000x1_S100000x128_0_1
    (broadcastInDim S100000x1 ![0] bcast_S100000_S100000x1_0 (degM ei)))

/-- max(d, 1) is at least 1, hence not zero, whatever d is. -/
theorem max_one_ne_zero (d : FVec Ideal S100000 .f32) (p : Fin 100000) : (maximumf d ones) (ix1 p) ≠ 0 := by
  have h1 : (1 : EReal) ≤ (maximumf d ones) (ix1 p) := by
    show (1 : EReal) ≤ max (d (ix1 p)) (Ideal.ofBits .f32 0x3F800000#32)
    rw [Ideal.ofBits_one_f32]
    exact le_max_right _ _
  intro h0
  rw [h0] at h1
  exact absurd h1 (by norm_num)

/-- Scaling by the reciprocal of max(d, 1) is dividing by max(d, 1), for any aggregate g and any vector d. -/
theorem scale_eq_div (g : FVec Ideal S100000x128 .f32) (d : FVec Ideal S100000 .f32) :
    mulf g (broadcastInDim S100000x128 ![0, 1] bcast_S100000x1_S100000x128_0_1
        (broadcastInDim S100000x1 ![0] bcast_S100000_S100000x1_0 (Host.divf (F := Ideal) ones (maximumf d ones))))
      = Host.divf (F := Ideal) g (broadcastInDim S100000x128 ![0, 1] bcast_S100000x1_S100000x128_0_1
        (broadcastInDim S100000x1 ![0] bcast_S100000_S100000x1_0 (maximumf d ones))) := by
  funext i
  rw [eq_ix2 i]
  exact Cert.Lib.ColumnScale.scale_recip_eq_div g ones (maximumf d ones) (fun _ => rfl)
    bcast_S100000_S100000x1_0 bcast_S100000x1_S100000x128_0_1 (i 0) (i 1) (max_one_ne_zero d (i 0))

/-- The two ways of writing the mean are one array. -/
theorem meanMul_eq_meanDiv (h : FVec Ideal S100000x128 .f32) (ei : IVec S2x1600000 32) : meanMul h ei = meanDiv h ei :=
  scale_eq_div (aggOf h (src ei) (dst ei)) (deg ei)

/-- Layer l's weight out of the stacked weights: the slice at l, its unit axis dropped. -/
def w0 (W : FVec Ideal S3x128x128 .f32) : FVec Ideal S128x128 .f32 :=
  shapeCast S128x128 (extractStridedSlice S1x128x128 ![0, 0, 0] W slices_S3x128x128_S1x128x128_0_0_0) shapeCasts_S1x128x128_S128x128
def w1 (W : FVec Ideal S3x128x128 .f32) : FVec Ideal S128x128 .f32 :=
  shapeCast S128x128 (extractStridedSlice S1x128x128 ![1, 0, 0] W slices_S3x128x128_S1x128x128_1_0_0) shapeCasts_S1x128x128_S128x128
def w2 (W : FVec Ideal S3x128x128 .f32) : FVec Ideal S128x128 .f32 :=
  shapeCast S128x128 (extractStridedSlice S1x128x128 ![2, 0, 0] W slices_S3x128x128_S1x128x128_2_0_0) shapeCasts_S1x128x128_S128x128

/-- Layer l's bias out of the stacked biases. -/
def b0 (B : FVec Ideal S3x128 .f32) : FVec Ideal S128 .f32 :=
  shapeCast S128 (extractStridedSlice S1x128 ![0, 0] B slices_S3x128_S1x128_0_0) shapeCasts_S1x128_S128
def b1 (B : FVec Ideal S3x128 .f32) : FVec Ideal S128 .f32 :=
  shapeCast S128 (extractStridedSlice S1x128 ![1, 0] B slices_S3x128_S1x128_1_0) shapeCasts_S1x128_S128
def b2 (B : FVec Ideal S3x128 .f32) : FVec Ideal S128 .f32 :=
  shapeCast S128 (extractStridedSlice S1x128 ![2, 0] B slices_S3x128_S1x128_2_0) shapeCasts_S1x128_S128

/-- The read-out weight's three bands of 128 rows. -/
def fw0 (W : FVec Ideal S384x64 .f32) : FVec Ideal S128x64 .f32 := extractStridedSlice S128x64 ![0, 0] W slices_S384x64_S128x64_0_0
def fw1 (W : FVec Ideal S384x64 .f32) : FVec Ideal S128x64 .f32 := extractStridedSlice S128x64 ![128, 0] W slices_S384x64_S128x64_128_0
def fw2 (W : FVec Ideal S384x64 .f32) : FVec Ideal S128x64 .f32 := extractStridedSlice S128x64 ![256, 0] W slices_S384x64_S128x64_256_0

/-- The three layers' outputs, the mean written either way (`mean` is `meanMul` or `meanDiv`). -/
def out0 (mean : FVec Ideal S100000x128 .f32 → IVec S2x1600000 32 → FVec Ideal S100000x128 .f32)
    (x : FVec Ideal S100000x128 .f32) (ei : IVec S2x1600000 32) (Wl Wr : FVec Ideal S3x128x128 .f32) (B : FVec Ideal S3x128 .f32) :
    FVec Ideal S100000x128 .f32 :=
  layer (n := 100000) (mean x ei) x (w0 Wl) (w0 Wr) (b0 B)
def out1 (mean : FVec Ideal S100000x128 .f32 → IVec S2x1600000 32 → FVec Ideal S100000x128 .f32)
    (x : FVec Ideal S100000x128 .f32) (ei : IVec S2x1600000 32) (Wl Wr : FVec Ideal S3x128x128 .f32) (B : FVec Ideal S3x128 .f32) :
    FVec Ideal S100000x128 .f32 :=
  layer (n := 100000) (mean (out0 mean x ei Wl Wr B) ei) (out0 mean x ei Wl Wr B) (w1 Wl) (w1 Wr) (b1 B)
def out2 (mean : FVec Ideal S100000x128 .f32 → IVec S2x1600000 32 → FVec Ideal S100000x128 .f32)
    (x : FVec Ideal S100000x128 .f32) (ei : IVec S2x1600000 32) (Wl Wr : FVec Ideal S3x128x128 .f32) (B : FVec Ideal S3x128 .f32) :
    FVec Ideal S100000x128 .f32 :=
  layer (n := 100000) (mean (out1 mean x ei Wl Wr B) ei) (out1 mean x ei Wl Wr B) (w2 Wl) (w2 Wr) (b2 B)

/-- The whole network's result. -/
def net (mean : FVec Ideal S100000x128 .f32 → IVec S2x1600000 32 → FVec Ideal S100000x128 .f32)
    (x : FVec Ideal S100000x128 .f32) (ei : IVec S2x1600000 32) (Wl Wr : FVec Ideal S3x128x128 .f32) (B : FVec Ideal S3x128 .f32)
    (fw : FVec Ideal S384x64 .f32) (fb : FVec Ideal S64 .f32) : FVec Ideal S100000x64 .f32 :=
  fc (n := 100000) (out0 mean x ei Wl Wr B) (out1 mean x ei Wl Wr B) (out2 mean x ei Wl Wr B) (fw0 fw) (fw1 fw) (fw2 fw) fb

/-- The network does not depend on which way the mean is written. -/
theorem net_mean (x : FVec Ideal S100000x128 .f32) (ei : IVec S2x1600000 32) (Wl Wr : FVec Ideal S3x128x128 .f32)
    (B : FVec Ideal S3x128 .f32) (fw : FVec Ideal S384x64 .f32) (fb : FVec Ideal S64 .f32) :
    net meanMul x ei Wl Wr B fw fb = net meanDiv x ei Wl Wr B fw fb :=
  congrArg (fun mean => net mean x ei Wl Wr B fw fb) (funext fun h => funext fun e => meanMul_eq_meanDiv h e)

end Cert.Sage

end
-- ==== Proof.SageHost.lean ====
/-
  The host stretches of the kernel program, read at the buffers the kernels and the later stretches use.

  Each stretch is a straight line of array operations; from ANY contents W of the buffers, what a buffer holds after the
  stretch is the composed term of what the stretch's inputs held.  The first stretch splits the edge list, computes the
  reciprocal degrees and the first mean, and slices the first layer's weights; the second and third recompute the mean
  from the previous layer's output (reusing the edge rows and the reciprocal column) and slice the next weights; the
  fourth takes the three bands of the read-out weight.  A buffer no operation of a stretch writes holds what it held.
-/
import proofs.«174320_j8134668058764_1_alg».proof.Proof.Gen.KernelIdeal.Launch
import proofs.«174320_j8134668058764_1_alg».proof.Proof.SageShared
import Idealize.ShloMosaic.Lib.StableHlo.Run

set_option maxRecDepth 16384

noncomputable section

namespace Cert.Sage.Host

open Idealize.ShloMosaic Idealize.ShloMosaic.TcCoe Idealize.ShloMosaic.ValueIdx Idealize.ShloMosaic.StableHlo
open Idealize.SL Idealize.SL.Sem
open Cert.KernelIdeal Cert.KernelIdeal.Gen Cert.Sage

/-! ## The first stretch -/

set_option maxHeartbeats 8000000 in
theorem h0_v24 (W : Valuation τ sig (Elt Ideal)) :
    StableHlo.after (hostOps0 (F := Ideal)) W (Proc.devRef .tc main_v24) = meanMul (W (Proc.devRef .tc main_arg0)) (W (Proc.devRef .tc main_arg1)) := by
  after_results_simp
  rfl

set_option maxHeartbeats 4000000 in
theorem h0_v26 (W : Valuation τ sig (Elt Ideal)) :
    StableHlo.after (hostOps0 (F := Ideal)) W (Proc.devRef .tc main_v26) = w0 (W (Proc.devRef .tc main_arg2)) := by
  after_results_simp
  rfl

set_option maxHeartbeats 4000000 in
theorem h0_v28 (W : Valuation τ sig (Elt Ideal)) :
    StableHlo.after (hostOps0 (F := Ideal)) W (Proc.devRef .tc main_v28) = w0 (W (Proc.devRef .tc main_arg3)) := by
  after_results_simp
  rfl

set_option maxHeartbeats 4000000 in
theorem h0_v30 (W : Valuation τ sig (Elt Ideal)) :
    StableHlo.after (hostOps0 (F := Ideal)) W (Proc.devRef .tc main_v30) = b0 (W (Proc.devRef .tc main_arg4)) := by
  after_results_simp
  rfl

set_option maxHeartbeats 4000000 in
theorem h0_v1 (W : Valuation τ sig (Elt Ideal)) :
    StableHlo.after (hostOps0 (F := Ideal)) W (Proc.devRef .tc main_v1) = src (W (Proc.devRef .tc main_arg1)) := by
  after_results_simp
  rfl

set_option maxHeartbeats 4000000 in
theorem h0_v3 (W : Valuation τ sig (Elt Ideal)) :
    StableHlo.after (hostOps0 (F := Ideal)) W (Proc.devRef .tc main_v3) = dst (W (Proc.devRef .tc main_arg1)) := by
  after_results_simp
  rfl

set_option maxHeartbeats 4000000 in
theorem h0_v12 (W : Valuation τ sig (Elt Ideal)) :
    StableHlo.after (hostOps0 (F := Ideal)) W (Proc.devRef .tc main_v12) = recipCol (W (Proc.devRef .tc main_arg1)) := by
  after_results_simp
  rfl

set_option maxHeartbeats 4000000 in
theorem keep0_arg0 (W : Valuation τ sig (Elt Ideal)) :
    StableHlo.after (hostOps0 (F := Ideal)) W (Proc.devRef .tc main_arg0) = W (Proc.devRef .tc main_arg0) := by
  after_results_simp

set_option maxHeartbeats 4000000 in
theorem keep0_arg2 (W : Valuation τ sig (Elt Ideal)) :
    StableHlo.after (hostOps0 (F := Ideal)) W (Proc.devRef .tc main_arg2) = W (Proc.devRef .tc main_arg2) := by
  after_results_simp

set_option maxHeartbeats 4000000 in
theorem keep0_arg3 (W : Valuation τ sig (Elt Ideal)) :
    StableHlo.after (hostOps0 (F := Ideal)) W (Proc.devRef .tc main_arg3) = W (Proc.devRef .tc main_arg3) := by
  after_results_simp

set_option maxHeartbeats 4000000 in
theorem keep0_arg4 (W : Valuation τ sig (Elt Ideal)) :
    StableHlo.after (hostOps0 (F := Ideal)) W (Proc.devRef .tc main_arg4) = W (Proc.devRef .tc main_arg4) := by
  after_results_simp

set_option maxHeartbeats 4000000 in
theorem keep0_arg5 (W : Valuation τ sig (Elt Ideal)) :
    StableHlo.after (hostOps0 (F := Ideal)) W (Proc.devRef .tc main_arg5) = W (Proc.devRef .tc main_arg5) := by
  after_results_simp

set_option maxHeartbeats 4000000 in
theorem keep0_arg6 (W : Valuation τ sig (Elt Ideal)) :
    StableHlo.after (hostOps0 (F := Ideal)) W (Proc.devRef .tc main_arg6) = W (Proc.devRef .tc main_arg6) := by
  after_results_simp

/-! ## The second stretch -/

set_option maxHeartbeats 4000000 in
theorem h1_v43 (W : Valuation τ sig (Elt Ideal)) :
    StableHlo.after (hostOps1 (F := Ideal)) W (Proc.devRef .tc main_v43) = meanOf (W (Proc.devRef .tc main_v31)) (W (Proc.devRef .tc main_v1)) (W (Proc.devRef .tc main_v3)) (W (Proc.devRef .tc main_v12)) := by
  after_results_simp
  rfl

set_option maxHeartbeats 4000000 in
theorem h1_v45 (W : Valuation τ sig (Elt Ideal)) :
    StableHlo.after (hostOps1 (F := Ideal)) W (Proc.devRef .tc main_v45) = w1 (W (Proc.devRef .tc main_arg2)) := by
  after_results_simp
  rfl

set_option maxHeartbeats 4000000 in
theorem h1_v47 (W : Valuation τ sig (Elt Ideal)) :
    StableHlo.after (hostOps1 (F := Ideal)) W (Proc.devRef .tc main_v47) = w1 (W (Proc.devRef .tc main_arg3)) := by
  after_results_simp
  rfl

set_option maxHeartbeats 4000000 in
theorem h1_v49 (W : Valuation τ sig (Elt Ideal)) :
    StableHlo.after (hostOps1 (F := Ideal)) W (Proc.devRef .tc main_v49) = b1 (W (Proc.devRef .tc main_arg4)) := by
  after_results_simp
  rfl

set_option maxHeartbeats 4000000 in
theorem keep1_v1 (W : Valuation τ sig (Elt Ideal)) :
    StableHlo.after (hostOps1 (F := Ideal)) W (Proc.devRef .tc main_v1) = W (Proc.devRef .tc main_v1) := by
  after_results_simp

set_option maxHeartbeats 4000000 in
theorem keep1_v3 (W : Valuation τ sig (Elt Ideal)) :
    StableHlo.after (hostOps1 (F := Ideal)) W (Proc.devRef .tc main_v3) = W (Proc.devRef .tc main_v3) := by
  after_results_simp

set_option maxHeartbeats 4000000 in
theorem keep1_v12 (W : Valuation τ sig (Elt Ideal)) :
    StableHlo.after (hostOps1 (F := Ideal)) W (Proc.devRef .tc main_v12) = W (Proc.devRef .tc main_v12) := by
  after_results_simp

set_option maxHeartbeats 4000000 in
theorem keep1_v31 (W : Valuation τ sig (Elt Ideal)) :
    StableHlo.after (hostOps1 (F := Ideal)) W (Proc.devRef .tc main_v31) = W (Proc.devRef .tc main_v31) := by
  after_results_simp

set_option maxHeartbeats 4000000 in
theorem keep1_arg2 (W : Valuation τ sig (Elt Ideal)) :
    StableHlo.after (hostOps1 (F := Ideal)) W (Proc.devRef .tc main_arg2) = W (Proc.devRef .tc main_arg2) := by
  after_results_simp

set_option maxHeartbeats 4000000 in
theorem keep1_arg3 (W : Valuation τ sig (Elt Ideal)) :
    StableHlo.after (hostOps1 (F := Ideal)) W (Proc.devRef .tc main_arg3) = W (Proc.devRef .tc main_arg3) := by
  after_results_simp

set_option maxHeartbeats 4000000 in
theorem keep1_arg4 (W : Valuation τ sig (Elt Ideal)) :
    StableHlo.after (hostOps1 (F := Ideal)) W (Proc.devRef .tc main_arg4) = W (Proc.devRef .tc main_arg4) := by
  after_results_simp

set_option maxHeartbeats 4000000 in
theorem keep1_arg5 (W : Valuation τ sig (Elt Ideal)) :
    StableHlo.after (hostOps1 (F := Ideal)) W (Proc.devRef .tc main_arg5) = W (Proc.devRef .tc main_arg5) := by
  after_results_simp

set_option maxHeartbeats 4000000 in
theorem keep1_arg6 (W : Valuation τ sig (Elt Ideal)) :
    StableHlo.after (hostOps1 (F := Ideal)) W (Proc.devRef .tc main_arg6) = W (Proc.devRef .tc main_arg6) := by
  after_results_simp

/-! ## The third stretch -/

set_option maxHeartbeats 4000000 in
theorem h2_v62 (W : Valuation τ sig (Elt Ideal)) :
    StableHlo.after (hostOps2 (F := Ideal)) W (Proc.devRef .tc main_v62) = meanOf (W (Proc.devRef .tc main_v50)) (W (Proc.devRef .tc main_v1)) (W (Proc.devRef .tc main_v3)) (W (Proc.devRef .tc main_v12)) := by
  after_results_simp
  rfl

set_option maxHeartbeats 4000000 in
theorem h2_v64 (W : Valuation τ sig (Elt Ideal)) :
    StableHlo.after (hostOps2 (F := Ideal)) W (Proc.devRef .tc main_v64) = w2 (W (Proc.devRef .tc main_arg2)) := by
  after_results_simp
  rfl

set_option maxHeartbeats 4000000 in
theorem h2_v66 (W : Valuation τ sig (Elt Ideal)) :
    StableHlo.after (hostOps2 (F := Ideal)) W (Proc.devRef .tc main_v66) = w2 (W (Proc.devRef .tc main_arg3)) := by
  after_results_simp
  rfl

set_option maxHeartbeats 4000000 in
theorem h2_v68 (W : Valuation τ sig (Elt Ideal)) :
    StableHlo.after (hostOps2 (F := Ideal)) W (Proc.devRef .tc main_v68) = b2 (W (Proc.devRef .tc main_arg4)) := by
  after_results_simp
  rfl

set_option maxHeartbeats 4000000 in
theorem keep2_v31 (W : Valuation τ sig (Elt Ideal)) :
    StableHlo.after (hostOps2 (F := Ideal)) W (Proc.devRef .tc main_v31) = W (Proc.devRef .tc main_v31) := by
  after_results_simp

set_option maxHeartbeats 4000000 in
theorem keep2_v50 (W : Valuation τ sig (Elt Ideal)) :
    StableHlo.after (hostOps2 (F := Ideal)) W (Proc.devRef .tc main_v50) = W (Proc.devRef .tc main_v50) := by
  after_results_simp

set_option maxHeartbeats 4000000 in
theorem keep2_arg5 (W : Valuation τ sig (Elt Ideal)) :
    StableHlo.after (hostOps2 (F := Ideal)) W (Proc.devRef .tc main_arg5) = W (Proc.devRef .tc main_arg5) := by
  after_results_simp

set_option maxHeartbeats 4000000 in
theorem keep2_arg6 (W : Valuation τ sig (Elt Ideal)) :
    StableHlo.after (hostOps2 (F := Ideal)) W (Proc.devRef .tc main_arg6) = W (Proc.devRef .tc main_arg6) := by
  after_results_simp

/-! ## The fourth stretch -/

set_option maxHeartbeats 4000000 in
theorem h3_v70 (W : Valuation τ sig (Elt Ideal)) :
    StableHlo.after (hostOps3 (F := Ideal)) W (Proc.devRef .tc main_v70) = fw0 (W (Proc.devRef .tc main_arg5)) := by
  after_results_simp
  rfl

set_option maxHeartbeats 4000000 in
theorem h3_v71 (W : Valuation τ sig (Elt Ideal)) :
    StableHlo.after (hostOps3 (F := Ideal)) W (Proc.devRef .tc main_v71) = fw1 (W (Proc.devRef .tc main_arg5)) := by
  after_results_simp
  rfl

set_option maxHeartbeats 4000000 in
theorem h3_v72 (W : Valuation τ sig (Elt Ideal)) :
    StableHlo.after (hostOps3 (F := Ideal)) W (Proc.devRef .tc main_v72) = fw2 (W (Proc.devRef .tc main_arg5)) := by
  after_results_simp
  rfl

set_option maxHeartbeats 4000000 in
theorem keep3_v31 (W : Valuation τ sig (Elt Ideal)) :
    StableHlo.after (hostOps3 (F := Ideal)) W (Proc.devRef .tc main_v31) = W (Proc.devRef .tc main_v31) := by
  after_results_simp

set_option maxHeartbeats 4000000 in
theorem keep3_v50 (W : Valuation τ sig (Elt Ideal)) :
    StableHlo.after (hostOps3 (F := Ideal)) W (Proc.devRef .tc main_v50) = W (Proc.devRef .tc main_v50) := by
  after_results_simp

set_option maxHeartbeats 4000000 in
theorem keep3_v69 (W : Valuation τ sig (Elt Ideal)) :
    StableHlo.after (hostOps3 (F := Ideal)) W (Proc.devRef .tc main_v69) = W (Proc.devRef .tc main_v69) := by
  after_results_simp

set_option maxHeartbeats 4000000 in
theorem keep3_arg6 (W : Valuation τ sig (Elt Ideal)) :
    StableHlo.after (hostOps3 (F := Ideal)) W (Proc.devRef .tc main_arg6) = W (Proc.devRef .tc main_arg6) := by
  after_results_simp

end Cert.Sage.Host

end
-- ==== Proof.LibPlainDot.lean ====
/-
  The product of an [M, K] matrix with a [K, N] matrix, contracted on the left operand's second axis and the right
  operand's first, read at an output index. Independent of any program.

  With no batch axis the contraction index has one coordinate, running over the K shared positions; at the output index
  (p, q) the left operand is read at (p, k) and the right at (k, q). So the contraction's sum over its own index type is
  the familiar sum over k of l (p, k) · r (k, q).
-/
import Idealize.ShloMosaic.Lib.ValueIdx
import Idealize.ShloMosaic.PureOps.Ideal
import Idealize.ShloMosaic.PureOps.Ideal.Laws

noncomputable section

namespace Cert.Lib

open Idealize.ShloMosaic Idealize.ShloMosaic.ValueIdx

/-- The dimension numbers of a plain matrix product [M, K] × [K, N] → [M, N]. -/
abbrev plainDot (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

/-- THE CONTRACTION AS A SUM OVER k: at the output index (p, q) the product's terms are l (p, k) · r (k, q). -/
theorem plainDot_sum {M K N : Nat}
    (wf : DotDims.WF ⟨2, ![M, K]⟩ ⟨2, ![K, N]⟩ ⟨2, ![M, N]⟩ [1] [0] [0] [1] [] [])
    (l : (⟨2, ![M, K]⟩ : Shape).Idx → EReal) (r : (⟨2, ![K, N]⟩ : Shape).Idx → EReal) (p : Fin M) (q : Fin N) :
    ∑ k : (plainDot M K N wf).contr.Idx,
        l ((plainDot M K N wf).lhsIdx (ix2 p q) k) * r ((plainDot M K N wf).rhsIdx (ix2 p q) k)
      = ∑ k : Fin K, l (ix2 p k) * r (ix2 k q) := by
  rw [← Equiv.sum_comp (contrEquiv1 (plainDot M K N wf) K rfl rfl).symm]
  refine Finset.sum_congr rfl fun k _ => ?_
  have hk := contrEquiv1_symm_val (plainDot M K N wf) K rfl rfl k
  have el : (plainDot M K N wf).lhsIdx (ix2 p q) ((contrEquiv1 (plainDot M K N wf) K rfl rfl).symm k) = ix2 p k :=
    funext fun a => Fin.ext (by
      match a with
      | ⟨0, _⟩ =>
        show ((plainDot M K N wf).lhsIdx (ix2 p q) ((contrEquiv1 (plainDot M K N wf) K rfl rfl).symm k) 0).val = p.val
        unfold DotDims.lhsIdx
        rw [dif_neg (show ¬ (0 : Fin 2) ∈ ([] : List (Fin 2)) from List.not_mem_nil),
          dif_pos (show (0 : Fin 2) ∈ ([0] : List (Fin 2)) from List.mem_singleton.mpr rfl)]
        rfl
      | ⟨1, _⟩ => exact ((plainDot M K N wf).lhsIdx_val_of_single rfl (ix2 p q) _).trans hk)
  have er : (plainDot M K N wf).rhsIdx (ix2 p q) ((contrEquiv1 (plainDot M K N wf) K rfl rfl).symm k) = ix2 k q :=
    funext fun a => Fin.ext (by
      match a with
      | ⟨0, _⟩ => exact ((plainDot M K N wf).rhsIdx_val_of_single rfl (ix2 p q) _).trans hk
      | ⟨1, _⟩ =>
        show ((plainDot M K N wf).rhsIdx (ix2 p q) ((contrEquiv1 (plainDot M K N wf) K rfl rfl).symm k) 1).val = q.val
        unfold DotDims.rhsIdx
        rw [dif_neg (show ¬ (1 : Fin 2) ∈ ([] : List (Fin 2)) from List.not_mem_nil),
          dif_pos (show (1 : Fin 2) ∈ ([1] : List (Fin 2)) from List.mem_singleton.mpr rfl)]
        rfl)
  rw [el, er]

/-- A kernel's matrix product into a zero accumulator, at (p, q). -/
theorem matmul_zero_apply {M K N : Nat} {φ₁ φ₂ : FTy}
    (wf : DotDims.WF ⟨2, ![M, K]⟩ ⟨2, ![K, N]⟩ ⟨2, ![M, N]⟩ [1] [0] [0] [1] [] [])
    (prec : Option ContractPrecision) (l : FVec Ideal ⟨2, ![M, K]⟩ φ₁) (r : FVec Ideal ⟨2, ![K, N]⟩ φ₂)
    (p : Fin M) (q : Fin N) :
    FloatOps.matmul (plainDot M K N wf) prec l r (constant (F := Ideal) ⟨2, ![M, N]⟩ .f32 0x00000000#32) (ix2 p q)
      = ∑ k : Fin K, l (ix2 p k) * r (ix2 k q) := by
  rw [Ideal.matmul_constant_zero_apply]
  exact plainDot_sum wf l r p q

/-- The host's matrix product, at (p, q). -/
theorem dotGeneral_plain_apply {M K N : Nat} {φ₁ φ₂ : FTy}
    (wf : DotDims.WF ⟨2, ![M, K]⟩ ⟨2, ![K, N]⟩ ⟨2, ![M, N]⟩ [1] [0] [0] [1] [] [])
    (prec : Option ContractPrecision) (sched : HostSchedule) (l : FVec Ideal ⟨2, ![M, K]⟩ φ₁) (r : FVec Ideal ⟨2, ![K, N]⟩ φ₂)
    (p : Fin M) (q : Fin N) :
    FloatOps.dotGeneral (plainDot M K N wf) prec sched l r (ix2 p q)
      = ∑ k : Fin K, l (ix2 p k) * r (ix2 k q) := by
  rw [Ideal.dotGeneral_apply]
  exact plainDot_sum wf l r p q

end Cert.Lib

end
-- ==== Proof.SageBody.lean ====
/-
  What each kernel body stores, read at an entry.

  A layer body loads a block of 5000 rows of the means and of the features, the two weights and the bias, rounds the
  matrix operands to a narrower format (the identity over the extended reals), multiplies into zero accumulators, adds
  the two products and the bias row spread down the block, and clamps below at zero: at (p, q) that is the layer's
  entry of the loaded blocks.  The read-out body does the same with three products and no clamp.
-/
import proofs.«174320_j8134668058764_1_alg».proof.Proof.Gen.KernelIdeal.Skeleton
import proofs.«174320_j8134668058764_1_alg».proof.Proof.SageSpec
import proofs.«174320_j8134668058764_1_alg».proof.Proof.LibPlainDot
import Idealize.ShloMosaic.Lib.ValueLayout
import Idealize.ShloMosaic.Lib.Pipeline.Value
import Idealize.ShloMosaic.PureOps.Ideal.Laws

noncomputable section

namespace Cert.Sage.Body

open Idealize.ShloMosaic Idealize.ShloMosaic.ValueIdx
open Cert.KernelIdeal Cert.KernelIdeal.Facts₀ Cert.Sage
open Cert.KernelIdeal.Gen (k0_pay1 k1_pay1 k2_pay1 k3_pay1)

/-- A block times a 128 × 128 weight into a zero accumulator, the operands narrowed first, at (p, q). -/
theorem dotW (l : FVec Ideal S5000x128 .f32) (r : FVec Ideal S128x128 .f32) (p : Fin 5000) (q : Fin 128) :
    matmul (F := Ideal) dot_S5000x128_S128x128_S5000x128_1_0_0_1_n_n none (truncf .bf16 l bitsLt_bf16_f32)
        (truncf .bf16 r bitsLt_bf16_f32) (constant (F := Ideal) S5000x128 .f32 0x00000000#32) (ix2 p q)
      = ∑ k : Fin 128, l (ix2 p k) * r (ix2 k q) :=
  Cert.Lib.matmul_zero_apply (M := 5000) (K := 128) (N := 128) dot_S5000x128_S128x128_S5000x128_1_0_0_1_n_n_wf none
    (truncf .bf16 l bitsLt_bf16_f32) (truncf .bf16 r bitsLt_bf16_f32) p q

/-- A block times a 128 × 64 weight into a zero accumulator, the operands narrowed first, at (p, q). -/
theorem dotF (l : FVec Ideal S5000x128 .f32) (r : FVec Ideal S128x64 .f32) (p : Fin 5000) (q : Fin 64) :
    matmul (F := Ideal) dot_S5000x128_S128x64_S5000x64_1_0_0_1_n_n none (truncf .bf16 l bitsLt_bf16_f32)
        (truncf .bf16 r bitsLt_bf16_f32) (constant (F := Ideal) S5000x64 .f32 0x00000000#32) (ix2 p q)
      = ∑ k : Fin 128, l (ix2 p k) * r (ix2 k q) :=
  Cert.Lib.matmul_zero_apply (M := 5000) (K := 128) (N := 64) dot_S5000x128_S128x64_S5000x64_1_0_0_1_n_n_wf none
    (truncf .bf16 l bitsLt_bf16_f32) (truncf .bf16 r bitsLt_bf16_f32) p q

/-- The bias row spread down a block of 5000 rows, at (p, q). -/
theorem biasW (b : FVec Ideal S128 .f32) (p : Fin 5000) (q : Fin 128) :
    broadcastTo S5000x128 (shapeCast S1x128 b shapeCasts_S128_S1x128) broadcasts_S1x128_S5000x128 (ix2 p q) = b (ix1 q) :=
  (broadcastTo_1b_ab_apply _ broadcasts_S1x128_S5000x128 p q).trans (shapeCast_a_1a_apply b shapeCasts_S128_S1x128 0 q)

theorem biasF (b : FVec Ideal S64 .f32) (p : Fin 5000) (q : Fin 64) :
    broadcastTo S5000x64 (shapeCast S1x64 b shapeCasts_S64_S1x64) broadcasts_S1x64_S5000x64 (ix2 p q) = b (ix1 q) :=
  (broadcastTo_1b_ab_apply _ broadcasts_S1x64_S5000x64 p q).trans (shapeCast_a_1a_apply b shapeCasts_S64_S1x64 0 q)

/-- The first layer's stored block, at (p, q). -/
theorem pay0_apply (x0 x1 : Vec Ideal S5000x128 .f32) (x2 x3 : Vec Ideal S128x128 .f32) (x4 : Vec Ideal S128 .f32)
    (p : Fin 5000) (q : Fin 128) :
    k0_pay1 (F := Ideal) x0 x1 x2 x3 x4 (ix2 p q) = layerAt (n := 5000) x0 x1 x2 x3 x4 p q := by
  unfold k0_pay1 layerAt
  rw [shapeCast_self x0, shapeCast_self x2, shapeCast_self x3, shapeCast_self x4]
  refine congrArg₂ max (congrArg₂ (· + ·) (congrArg₂ (· + ·) ?_ ?_) ?_) rfl
  · exact dotW x0 x2 p q
  · exact dotW x1 x3 p q
  · exact biasW x4 p q

/-- The second layer's stored block, at (p, q). -/
theorem pay1_apply (x0 x1 : Vec Ideal S5000x128 .f32) (x2 x3 : Vec Ideal S128x128 .f32) (x4 : Vec Ideal S128 .f32)
    (p : Fin 5000) (q : Fin 128) :
    k1_pay1 (F := Ideal) x0 x1 x2 x3 x4 (ix2 p q) = layerAt (n := 5000) x0 x1 x2 x3 x4 p q := by
  unfold k1_pay1 layerAt
  rw [shapeCast_self x0, shapeCast_self x1, shapeCast_self x2, shapeCast_self x3, shapeCast_self x4]
  refine congrArg₂ max (congrArg₂ (· + ·) (congrArg₂ (· + ·) ?_ ?_) ?_) rfl
  · exact dotW x0 x2 p q
  · exact dotW x1 x3 p q
  · exact biasW x4 p q

/-- The third layer's stored block, at (p, q). -/
theorem pay2_apply (x0 x1 : Vec Ideal S5000x128 .f32) (x2 x3 : Vec Ideal S128x128 .f32) (x4 : Vec Ideal S128 .f32)
    (p : Fin 5000) (q : Fin 128) :
    k2_pay1 (F := Ideal) x0 x1 x2 x3 x4 (ix2 p q) = layerAt (n := 5000) x0 x1 x2 x3 x4 p q := by
  unfold k2_pay1 layerAt
  rw [shapeCast_self x0, shapeCast_self x1, shapeCast_self x2, shapeCast_self x3, shapeCast_self x4]
  refine congrArg₂ max (congrArg₂ (· + ·) (congrArg₂ (· + ·) ?_ ?_) ?_) rfl
  · exact dotW x0 x2 p q
  · exact dotW x1 x3 p q
  · exact biasW x4 p q

/-- The read-out's stored block, at (p, q). -/
theorem pay3_apply (x0 x1 x2 : Vec Ideal S5000x128 .f32) (x3 x4 x5 : Vec Ideal S128x64 .f32) (x6 : Vec Ideal S64 .f32)
    (p : Fin 5000) (q : Fin 64) :
    k3_pay1 (F := Ideal) x0 x1 x2 x3 x4 x5 x6 (ix2 p q) = fcAt (n := 5000) x0 x1 x2 x3 x4 x5 x6 p q := by
  unfold k3_pay1 fcAt
  rw [shapeCast_self x0, shapeCast_self x1, shapeCast_self x2, shapeCast_self x3, shapeCast_self x4, shapeCast_self x5]
  refine congrArg₂ (· + ·) (congrArg₂ (· + ·) (congrArg₂ (· + ·) ?_ ?_) ?_) ?_
  · exact dotF x0 x3 p q
  · exact dotF x1 x4 p q
  · exact dotF x2 x5 p q
  · exact biasF x6 p q

end Cert.Sage.Body

end
-- ==== Proof.SageRegion0.lean ====
/-
  What layer 1's kernel leaves in its output array, as one function of the arrays it is entered with.

  The grid has 20 points; at point t the body sees rows 5000·t … 5000·t + 4999 of the means and of the features and the
  whole weights and bias, and its stored block is written back to the same rows of the output.  A layer is row-wise, so
  the stored block is the same rows of the layer applied to the whole arrays; the 20 blocks tile the 100000 rows, so the
  output array is the layer of the arrays.  The arrays are whatever the region is entered with.
-/
import proofs.«174320_j8134668058764_1_alg».proof.Proof.Gen.KernelIdeal.Frame
import proofs.«174320_j8134668058764_1_alg».proof.Proof.SageBody

set_option maxRecDepth 16384

noncomputable section

namespace Cert.Sage.Region0

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Sage

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a <;> rfl

/-- The printed index maps over the grid: the row-blocked windows sit at block row t, the others at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 ∧ t.val < 20 :=
  (by decide +kernel : ∀ t : Fin grid0.N, _)

/-- Every block row is some point's. -/
theorem idx_onto : ∀ q0 : Fin 20, ∃ t : Fin cfg0.N, win0_5.index t = ![q0.val, 0] :=
  (by decide +kernel : ∀ q0 : Fin 20, ∃ t : Fin grid0.N, win0_5.index t = ![q0.val, 0])

/-- The layer of the arrays the region is entered with. -/
abbrev G (c : Dev nD) : Mat 100000 128 :=
  layer (n := 100000) (V c main_v24) (V c main_arg0) (V c main_v26) (V c main_v28) (V c main_v30)

/-- A row-blocked input's block at point t, read at (p, k), is the array at row 5000·t + p. -/
theorem read0 (c : Dev nD) (t : Fin cfg0.N) (p : Fin 5000) (k : Fin 128) (P : Fin 100000) (hP : P.val = t.val * 5000 + p.val) :
    iblk0 V c 0 t (ix2 p k) = V c main_v24 (ix2 P k) := by
  obtain ⟨e00, e01, e10, e11, e20, e21, e30, e31, e40, e50, e51, ht⟩ := idx_facts t
  show V c main_v24 (((cfg0.win 0).blk t).view.emb (ix2 p k)) = V c main_v24 (ix2 P k)
  refine congrArg (V c main_v24) ?_
  funext a; apply Fin.ext
  match a with
  | ⟨0, _⟩ => show win0_0.index t (0 : Fin 2) * 5000 + 1 * p.val = P.val; omega
  | ⟨1, _⟩ => show win0_0.index t (1 : Fin 2) * 128 + 1 * k.val = k.val; omega

theorem read1 (c : Dev nD) (t : Fin cfg0.N) (p : Fin 5000) (k : Fin 128) (P : Fin 100000) (hP : P.val = t.val * 5000 + p.val) :
    iblk0 V c 1 t (ix2 p k) = V c main_arg0 (ix2 P k) := by
  obtain ⟨e00, e01, e10, e11, e20, e21, e30, e31, e40, e50, e51, ht⟩ := idx_facts t
  show V c main_arg0 (((cfg0.win 1).blk t).view.emb (ix2 p k)) = V c main_arg0 (ix2 P k)
  refine congrArg (V c main_arg0) ?_
  funext a; apply Fin.ext
  match a with
  | ⟨0, _⟩ => show win0_1.index t (0 : Fin 2) * 5000 + 1 * p.val = P.val; omega
  | ⟨1, _⟩ => show win0_1.index t (1 : Fin 2) * 128 + 1 * k.val = k.val; omega

/-- A weight's block is the whole weight. -/
theorem read2 (c : Dev nD) (t : Fin cfg0.N) (k : Fin 128) (q : Fin 128) :
    iblk0 V c 2 t (ix2 k q) = V c main_v26 (ix2 k q) := by
  obtain ⟨e00, e01, e10, e11, e20, e21, e30, e31, e40, e50, e51, ht⟩ := idx_facts t
  show V c main_v26 (((cfg0.win 2).blk t).view.emb (ix2 k q)) = V c main_v26 (ix2 k q)
  refine congrArg (V c main_v26) ?_
  funext a; apply Fin.ext
  match a with
  | ⟨0, _⟩ => show win0_2.index t (0 : Fin 2) * 128 + 1 * k.val = k.val; omega
  | ⟨1, _⟩ => show win0_2.index t (1 : Fin 2) * 128 + 1 * q.val = q.val; omega

theorem read3 (c : Dev nD) (t : Fin cfg0.N) (k : Fin 128) (q : Fin 128) :
    iblk0 V c 3 t (ix2 k q) = V c main_v28 (ix2 k q) := by
  obtain ⟨e00, e01, e10, e11, e20, e21, e30, e31, e40, e50, e51, ht⟩ := idx_facts t
  show V c main_v28 (((cfg0.win 3).blk t).view.emb (ix2 k q)) = V c main_v28 (ix2 k q)
  refine congrArg (V c main_v28) ?_
  funext a; apply Fin.ext
  match a with
  | ⟨0, _⟩ => show win0_3.index t (0 : Fin 2) * 128 + 1 * k.val = k.val; omega
  | ⟨1, _⟩ => show win0_3.index t (1 : Fin 2) * 128 + 1 * q.val = q.val; omega

/-- The bias's block is the whole bias. -/
theorem read4 (c : Dev nD) (t : Fin cfg0.N) (q : Fin 128) :
    iblk0 V c 4 t (ix1 q) = V c main_v30 (ix1 q) := by
  obtain ⟨e00, e01, e10, e11, e20, e21, e30, e31, e40, e50, e51, ht⟩ := idx_facts t
  show V c main_v30 (((cfg0.win 4).blk t).view.emb (ix1 q)) = V c main_v30 (ix1 q)
  refine congrArg (V c main_v30) ?_
  funext a; apply Fin.ext
  match a with
  | ⟨0, _⟩ => show win0_4.index t (0 : Fin 1) * 128 + 1 * q.val = q.val; omega

/-- WHAT POINT t WRITES BACK is block t of the layer of the entry arrays. -/
theorem flushed_eq (c : Dev nD) (t : Fin cfg0.N) :
    (dat0 (F := Ideal) V c).flushed 5 t = ((cfg0.win 5).blk t).view.read (Elt Ideal) (G V c) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz, View.ld_unit_zero (S := S128) hz1]
  obtain ⟨e00, e01, e10, e11, e20, e21, e30, e31, e40, e50, e51, ht⟩ := idx_facts t
  refine funext fun (j : S5000x128.Idx) => ?_
  obtain ⟨p, q, rfl⟩ : ∃ (p : Fin 5000) (q : Fin 128), j = ix2 p q := ⟨j 0, j 1, eq_ix2 j⟩
  have hemb : ((cfg0.win 5).blk t).view.emb (ix2 p q) = ix2 (⟨t.val * 5000 + p.val, by have := p.isLt; omega⟩ : Fin 100000) q := by
    funext a; apply Fin.ext
    match a with
    | ⟨0, _⟩ => show win0_5.index t (0 : Fin 2) * 5000 + 1 * p.val = t.val * 5000 + p.val; omega
    | ⟨1, _⟩ => show win0_5.index t (1 : Fin 2) * 128 + 1 * q.val = q.val; omega
  show k0_pay1 (iblk0 V c 0 t) (iblk0 V c 1 t) (iblk0 V c 2 t) (iblk0 V c 3 t) (iblk0 V c 4 t) (ix2 p q)
    = G V c (((cfg0.win 5).blk t).view.emb (ix2 p q))
  rw [hemb]
  refine (Body.pay0_apply (iblk0 V c 0 t) (iblk0 V c 1 t) (iblk0 V c 2 t) (iblk0 V c 3 t) (iblk0 V c 4 t) p q).trans ?_
  exact layerAt_congr (n := 5000) (N := 100000) (iblk0 V c 0 t) (iblk0 V c 1 t) (V c main_v24) (V c main_arg0)
    (iblk0 V c 2 t) (iblk0 V c 3 t) (V c main_v26) (V c main_v28) (iblk0 V c 4 t) (V c main_v30) p _ q
    (fun k => read0 V c t p k _ rfl) (fun k => read1 V c t p k _ rfl) (fun k => read2 V c t k q) (fun k => read3 V c t k q)
    (read4 V c t q)

/-- An index of the array is in point t's block iff each coordinate is in the block's range on its axis. -/
theorem mem_blk (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v31).slice (win0_5.rect t)).set ↔ _
  rw [View.set_slice_whole, Rect.mem_set_unit]
  exact Iff.rfl

/-- The 20 blocks cover the array. -/
theorem cover (i : S100000x128.Idx) : ∃ t : Fin cfg0.N, (cfg0.win 5).flush t = true ∧ i ∈ ((cfg0.win 5).blk t).view.set := by
  have hi0 : (i 0).val < 100000 := (i 0).isLt
  have hi1 : (i 1).val < 128 := (i 1).isLt
  obtain ⟨t, ht⟩ := idx_onto ⟨(i 0).val / 5000, by omega⟩
  have q0 : win0_5.index t (0 : Fin 2) = (i 0).val / 5000 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- THE OUTPUT ARRAY after the region: the layer of the arrays the region is entered with. -/
theorem final (c : Dev nD) : (dat0 (F := Ideal) V c).arrAt 5 cfg0.N = G V c :=
  (dat0 (F := Ideal) V c).arrAt_eq_of_cover 5 (G V c) (fun t _ => flushed_eq V c t) (cover)

end Cert.Sage.Region0

end
-- ==== Proof.SageRegion1.lean ====
/-
  What layer 2's kernel leaves in its output array, as one function of the arrays it is entered with.

  The grid has 20 points; at point t the body sees rows 5000·t … 5000·t + 4999 of the means and of the features and the
  whole weights and bias, and its stored block is written back to the same rows of the output.  A layer is row-wise, so
  the stored block is the same rows of the layer applied to the whole arrays; the 20 blocks tile the 100000 rows, so the
  output array is the layer of the arrays.  The arrays are whatever the region is entered with.
-/
import proofs.«174320_j8134668058764_1_alg».proof.Proof.Gen.KernelIdeal.Frame
import proofs.«174320_j8134668058764_1_alg».proof.Proof.SageBody

set_option maxRecDepth 16384

noncomputable section

namespace Cert.Sage.Region1

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Sage

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a <;> rfl

/-- The printed index maps over the grid: the row-blocked windows sit at block row t, the others at block 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 ∧ t.val < 20 :=
  (by decide +kernel : ∀ t : Fin grid1.N, _)

/-- Every block row is some point's. -/
theorem idx_onto : ∀ q0 : Fin 20, ∃ t : Fin cfg1.N, win1_5.index t = ![q0.val, 0] :=
  (by decide +kernel : ∀ q0 : Fin 20, ∃ t : Fin grid1.N, win1_5.index t = ![q0.val, 0])

/-- The layer of the arrays the region is entered with. -/
abbrev G (c : Dev nD) : Mat 100000 128 :=
  layer (n := 100000) (V c main_v43) (V c main_v31) (V c main_v45) (V c main_v47) (V c main_v49)

/-- A row-blocked input's block at point t, read at (p, k), is the array at row 5000·t + p. -/
theorem read0 (c : Dev nD) (t : Fin cfg1.N) (p : Fin 5000) (k : Fin 128) (P : Fin 100000) (hP : P.val = t.val * 5000 + p.val) :
    iblk1 V c 0 t (ix2 p k) = V c main_v43 (ix2 P k) := by
  obtain ⟨e00, e01, e10, e11, e20, e21, e30, e31, e40, e50, e51, ht⟩ := idx_facts t
  show V c main_v43 (((cfg1.win 0).blk t).view.emb (ix2 p k)) = V c main_v43 (ix2 P k)
  refine congrArg (V c main_v43) ?_
  funext a; apply Fin.ext
  match a with
  | ⟨0, _⟩ => show win1_0.index t (0 : Fin 2) * 5000 + 1 * p.val = P.val; omega
  | ⟨1, _⟩ => show win1_0.index t (1 : Fin 2) * 128 + 1 * k.val = k.val; omega

theorem read1 (c : Dev nD) (t : Fin cfg1.N) (p : Fin 5000) (k : Fin 128) (P : Fin 100000) (hP : P.val = t.val * 5000 + p.val) :
    iblk1 V c 1 t (ix2 p k) = V c main_v31 (ix2 P k) := by
  obtain ⟨e00, e01, e10, e11, e20, e21, e30, e31, e40, e50, e51, ht⟩ := idx_facts t
  show V c main_v31 (((cfg1.win 1).blk t).view.emb (ix2 p k)) = V c main_v31 (ix2 P k)
  refine congrArg (V c main_v31) ?_
  funext a; apply Fin.ext
  match a with
  | ⟨0, _⟩ => show win1_1.index t (0 : Fin 2) * 5000 + 1 * p.val = P.val; omega
  | ⟨1, _⟩ => show win1_1.index t (1 : Fin 2) * 128 + 1 * k.val = k.val; omega

/-- A weight's block is the whole weight. -/
theorem read2 (c : Dev nD) (t : Fin cfg1.N) (k : Fin 128) (q : Fin 128) :
    iblk1 V c 2 t (ix2 k q) = V c main_v45 (ix2 k q) := by
  obtain ⟨e00, e01, e10, e11, e20, e21, e30, e31, e40, e50, e51, ht⟩ := idx_facts t
  show V c main_v45 (((cfg1.win 2).blk t).view.emb (ix2 k q)) = V c main_v45 (ix2 k q)
  refine congrArg (V c main_v45) ?_
  funext a; apply Fin.ext
  match a with
  | ⟨0, _⟩ => show win1_2.index t (0 : Fin 2) * 128 + 1 * k.val = k.val; omega
  | ⟨1, _⟩ => show win1_2.index t (1 : Fin 2) * 128 + 1 * q.val = q.val; omega

theorem read3 (c : Dev nD) (t : Fin cfg1.N) (k : Fin 128) (q : Fin 128) :
    iblk1 V c 3 t (ix2 k q) = V c main_v47 (ix2 k q) := by
  obtain ⟨e00, e01, e10, e11, e20, e21, e30, e31, e40, e50, e51, ht⟩ := idx_facts t
  show V c main_v47 (((cfg1.win 3).blk t).view.emb (ix2 k q)) = V c main_v47 (ix2 k q)
  refine congrArg (V c main_v47) ?_
  funext a; apply Fin.ext
  match a with
  | ⟨0, _⟩ => show win1_3.index t (0 : Fin 2) * 128 + 1 * k.val = k.val; omega
  | ⟨1, _⟩ => show win1_3.index t (1 : Fin 2) * 128 + 1 * q.val = q.val; omega

/-- The bias's block is the whole bias. -/
theorem read4 (c : Dev nD) (t : Fin cfg1.N) (q : Fin 128) :
    iblk1 V c 4 t (ix1 q) = V c main_v49 (ix1 q) := by
  obtain ⟨e00, e01, e10, e11, e20, e21, e30, e31, e40, e50, e51, ht⟩ := idx_facts t
  show V c main_v49 (((cfg1.win 4).blk t).view.emb (ix1 q)) = V c main_v49 (ix1 q)
  refine congrArg (V c main_v49) ?_
  funext a; apply Fin.ext
  match a with
  | ⟨0, _⟩ => show win1_4.index t (0 : Fin 1) * 128 + 1 * q.val = q.val; omega

/-- WHAT POINT t WRITES BACK is block t of the layer of the entry arrays. -/
theorem flushed_eq (c : Dev nD) (t : Fin cfg1.N) :
    (dat1 (F := Ideal) V c).flushed 5 t = ((cfg1.win 5).blk t).view.read (Elt Ideal) (G V c) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x128) hz, View.ld_unit_zero (S := S128) hz1]
  obtain ⟨e00, e01, e10, e11, e20, e21, e30, e31, e40, e50, e51, ht⟩ := idx_facts t
  refine funext fun (j : S5000x128.Idx) => ?_
  obtain ⟨p, q, rfl⟩ : ∃ (p : Fin 5000) (q : Fin 128), j = ix2 p q := ⟨j 0, j 1, eq_ix2 j⟩
  have hemb : ((cfg1.win 5).blk t).view.emb (ix2 p q) = ix2 (⟨t.val * 5000 + p.val, by have := p.isLt; omega⟩ : Fin 100000) q := by
    funext a; apply Fin.ext
    match a with
    | ⟨0, _⟩ => show win1_5.index t (0 : Fin 2) * 5000 + 1 * p.val = t.val * 5000 + p.val; omega
    | ⟨1, _⟩ => show win1_5.index t (1 : Fin 2) * 128 + 1 * q.val = q.val; omega
  show k1_pay1 (iblk1 V c 0 t) (iblk1 V c 1 t) (iblk1 V c 2 t) (iblk1 V c 3 t) (iblk1 V c 4 t) (ix2 p q)
    = G V c (((cfg1.win 5).blk t).view.emb (ix2 p q))
  rw [hemb]
  refine (Body.pay1_apply (iblk1 V c 0 t) (iblk1 V c 1 t) (iblk1 V c 2 t) (iblk1 V c 3 t) (iblk1 V c 4 t) p q).trans ?_
  exact layerAt_congr (n := 5000) (N := 100000) (iblk1 V c 0 t) (iblk1 V c 1 t) (V c main_v43) (V c main_v31)
    (iblk1 V c 2 t) (iblk1 V c 3 t) (V c main_v45) (V c main_v47) (iblk1 V c 4 t) (V c main_v49) p _ q
    (fun k => read0 V c t p k _ rfl) (fun k => read1 V c t p k _ rfl) (fun k => read2 V c t k q) (fun k => read3 V c t k q)
    (read4 V c t q)

/-- An index of the array is in point t's block iff each coordinate is in the block's range on its axis. -/
theorem mem_blk (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v50).slice (win1_5.rect t)).set ↔ _
  rw [View.set_slice_whole, Rect.mem_set_unit]
  exact Iff.rfl

/-- The 20 blocks cover the array. -/
theorem cover (i : S100000x128.Idx) : ∃ t : Fin cfg1.N, (cfg1.win 5).flush t = true ∧ i ∈ ((cfg1.win 5).blk t).view.set := by
  have hi0 : (i 0).val < 100000 := (i 0).isLt
  have hi1 : (i 1).val < 128 := (i 1).isLt
  obtain ⟨t, ht⟩ := idx_onto ⟨(i 0).val / 5000, by omega⟩
  have q0 : win1_5.index t (0 : Fin 2) = (i 0).val / 5000 := congrFun ht 0
  have q1 : win1_5.index t (1 : Fin 2) = 0 := congrFun ht 1
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- THE OUTPUT ARRAY after the region: the layer of the arrays the region is entered with. -/
theorem final (c : Dev nD) : (dat1 (F := Ideal) V c).arrAt 5 cfg1.N = G V c :=
  (dat1 (F := Ideal) V c).arrAt_eq_of_cover 5 (G V c) (fun t _ => flushed_eq V c t) (cover)

end Cert.Sage.Region1

end
-- ==== Proof.SageRegion2.lean ====
/-
  What layer 3's kernel leaves in its output array, as one function of the arrays it is entered with.

  The grid has 20 points; at point t the body sees rows 5000·t … 5000·t + 4999 of the means and of the features and the
  whole weights and bias, and its stored block is written back to the same rows of the output.  A layer is row-wise, so
  the stored block is the same rows of the layer applied to the whole arrays; the 20 blocks tile the 100000 rows, so the
  output array is the layer of the arrays.  The arrays are whatever the region is entered with.
-/
import proofs.«174320_j8134668058764_1_alg».proof.Proof.Gen.KernelIdeal.Frame
import proofs.«174320_j8134668058764_1_alg».proof.Proof.SageBody

set_option maxRecDepth 16384

noncomputable section

namespace Cert.Sage.Region2

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Sage

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a <;> rfl

/-- The printed index maps over the grid: the row-blocked windows sit at block row t, the others at block 0. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 1) = 0
    ∧ win2_5.index t (0 : Fin 2) = t.val ∧ win2_5.index t (1 : Fin 2) = 0 ∧ t.val < 20 :=
  (by decide +kernel : ∀ t : Fin grid2.N, _)

/-- Every block row is some point's. -/
theorem idx_onto : ∀ q0 : Fin 20, ∃ t : Fin cfg2.N, win2_5.index t = ![q0.val, 0] :=
  (by decide +kernel : ∀ q0 : Fin 20, ∃ t : Fin grid2.N, win2_5.index t = ![q0.val, 0])

/-- The layer of the arrays the region is entered with. -/
abbrev G (c : Dev nD) : Mat 100000 128 :=
  layer (n := 100000) (V c main_v62) (V c main_v50) (V c main_v64) (V c main_v66) (V c main_v68)

/-- A row-blocked input's block at point t, read at (p, k), is the array at row 5000·t + p. -/
theorem read0 (c : Dev nD) (t : Fin cfg2.N) (p : Fin 5000) (k : Fin 128) (P : Fin 100000) (hP : P.val = t.val * 5000 + p.val) :
    iblk2 V c 0 t (ix2 p k) = V c main_v62 (ix2 P k) := by
  obtain ⟨e00, e01, e10, e11, e20, e21, e30, e31, e40, e50, e51, ht⟩ := idx_facts t
  show V c main_v62 (((cfg2.win 0).blk t).view.emb (ix2 p k)) = V c main_v62 (ix2 P k)
  refine congrArg (V c main_v62) ?_
  funext a; apply Fin.ext
  match a with
  | ⟨0, _⟩ => show win2_0.index t (0 : Fin 2) * 5000 + 1 * p.val = P.val; omega
  | ⟨1, _⟩ => show win2_0.index t (1 : Fin 2) * 128 + 1 * k.val = k.val; omega

theorem read1 (c : Dev nD) (t : Fin cfg2.N) (p : Fin 5000) (k : Fin 128) (P : Fin 100000) (hP : P.val = t.val * 5000 + p.val) :
    iblk2 V c 1 t (ix2 p k) = V c main_v50 (ix2 P k) := by
  obtain ⟨e00, e01, e10, e11, e20, e21, e30, e31, e40, e50, e51, ht⟩ := idx_facts t
  show V c main_v50 (((cfg2.win 1).blk t).view.emb (ix2 p k)) = V c main_v50 (ix2 P k)
  refine congrArg (V c main_v50) ?_
  funext a; apply Fin.ext
  match a with
  | ⟨0, _⟩ => show win2_1.index t (0 : Fin 2) * 5000 + 1 * p.val = P.val; omega
  | ⟨1, _⟩ => show win2_1.index t (1 : Fin 2) * 128 + 1 * k.val = k.val; omega

/-- A weight's block is the whole weight. -/
theorem read2 (c : Dev nD) (t : Fin cfg2.N) (k : Fin 128) (q : Fin 128) :
    iblk2 V c 2 t (ix2 k q) = V c main_v64 (ix2 k q) := by
  obtain ⟨e00, e01, e10, e11, e20, e21, e30, e31, e40, e50, e51, ht⟩ := idx_facts t
  show V c main_v64 (((cfg2.win 2).blk t).view.emb (ix2 k q)) = V c main_v64 (ix2 k q)
  refine congrArg (V c main_v64) ?_
  funext a; apply Fin.ext
  match a with
  | ⟨0, _⟩ => show win2_2.index t (0 : Fin 2) * 128 + 1 * k.val = k.val; omega
  | ⟨1, _⟩ => show win2_2.index t (1 : Fin 2) * 128 + 1 * q.val = q.val; omega

theorem read3 (c : Dev nD) (t : Fin cfg2.N) (k : Fin 128) (q : Fin 128) :
    iblk2 V c 3 t (ix2 k q) = V c main_v66 (ix2 k q) := by
  obtain ⟨e00, e01, e10, e11, e20, e21, e30, e31, e40, e50, e51, ht⟩ := idx_facts t
  show V c main_v66 (((cfg2.win 3).blk t).view.emb (ix2 k q)) = V c main_v66 (ix2 k q)
  refine congrArg (V c main_v66) ?_
  funext a; apply Fin.ext
  match a with
  | ⟨0, _⟩ => show win2_3.index t (0 : Fin 2) * 128 + 1 * k.val = k.val; omega
  | ⟨1, _⟩ => show win2_3.index t (1 : Fin 2) * 128 + 1 * q.val = q.val; omega

/-- The bias's block is the whole bias. -/
theorem read4 (c : Dev nD) (t : Fin cfg2.N) (q : Fin 128) :
    iblk2 V c 4 t (ix1 q) = V c main_v68 (ix1 q) := by
  obtain ⟨e00, e01, e10, e11, e20, e21, e30, e31, e40, e50, e51, ht⟩ := idx_facts t
  show V c main_v68 (((cfg2.win 4).blk t).view.emb (ix1 q)) = V c main_v68 (ix1 q)
  refine congrArg (V c main_v68) ?_
  funext a; apply Fin.ext
  match a with
  | ⟨0, _⟩ => show win2_4.index t (0 : Fin 1) * 128 + 1 * q.val = q.val; omega

/-- WHAT POINT t WRITES BACK is block t of the layer of the entry arrays. -/
theorem flushed_eq (c : Dev nD) (t : Fin cfg2.N) :
    (dat2 (F := Ideal) V c).flushed 5 t = ((cfg2.win 5).blk t).view.read (Elt Ideal) (G V c) := by
  show (cfg2.win 5).cut (grid2.coords t) ((dat2 V c).after 5 t) = _
  rw [after2_5]
  unfold out2_5
  rw [View.canon_unit_zero hz]
  simp only [View.ld_unit_zero (S := S5000x128) hz, View.ld_unit_zero (S := S128x128) hz, View.ld_unit_zero (S := S128) hz1]
  obtain ⟨e00, e01, e10, e11, e20, e21, e30, e31, e40, e50, e51, ht⟩ := idx_facts t
  refine funext fun (j : S5000x128.Idx) => ?_
  obtain ⟨p, q, rfl⟩ : ∃ (p : Fin 5000) (q : Fin 128), j = ix2 p q := ⟨j 0, j 1, eq_ix2 j⟩
  have hemb : ((cfg2.win 5).blk t).view.emb (ix2 p q) = ix2 (⟨t.val * 5000 + p.val, by have := p.isLt; omega⟩ : Fin 100000) q := by
    funext a; apply Fin.ext
    match a with
    | ⟨0, _⟩ => show win2_5.index t (0 : Fin 2) * 5000 + 1 * p.val = t.val * 5000 + p.val; omega
    | ⟨1, _⟩ => show win2_5.index t (1 : Fin 2) * 128 + 1 * q.val = q.val; omega
  show k2_pay1 (iblk2 V c 0 t) (iblk2 V c 1 t) (iblk2 V c 2 t) (iblk2 V c 3 t) (iblk2 V c 4 t) (ix2 p q)
    = G V c (((cfg2.win 5).blk t).view.emb (ix2 p q))
  rw [hemb]
  refine (Body.pay2_apply (iblk2 V c 0 t) (iblk2 V c 1 t) (iblk2 V c 2 t) (iblk2 V c 3 t) (iblk2 V c 4 t) p q).trans ?_
  exact layerAt_congr (n := 5000) (N := 100000) (iblk2 V c 0 t) (iblk2 V c 1 t) (V c main_v62) (V c main_v50)
    (iblk2 V c 2 t) (iblk2 V c 3 t) (V c main_v64) (V c main_v66) (iblk2 V c 4 t) (V c main_v68) p _ q
    (fun k => read0 V c t p k _ rfl) (fun k => read1 V c t p k _ rfl) (fun k => read2 V c t k q) (fun k => read3 V c t k q)
    (read4 V c t q)

/-- An index of the array is in point t's block iff each coordinate is in the block's range on its axis. -/
theorem mem_blk (t : Fin cfg2.N) (i : S100000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v69).slice (win2_5.rect t)).set ↔ _
  rw [View.set_slice_whole, Rect.mem_set_unit]
  exact Iff.rfl

/-- The 20 blocks cover the array. -/
theorem cover (i : S100000x128.Idx) : ∃ t : Fin cfg2.N, (cfg2.win 5).flush t = true ∧ i ∈ ((cfg2.win 5).blk t).view.set := by
  have hi0 : (i 0).val < 100000 := (i 0).isLt
  have hi1 : (i 1).val < 128 := (i 1).isLt
  obtain ⟨t, ht⟩ := idx_onto ⟨(i 0).val / 5000, by omega⟩
  have q0 : win2_5.index t (0 : Fin 2) = (i 0).val / 5000 := congrFun ht 0
  have q1 : win2_5.index t (1 : Fin 2) = 0 := congrFun ht 1
  refine ⟨t, flush2_5 t, ?_⟩
  rw [mem_blk]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 128 ≤ (i 1).val ∧ (i 1).val < win2_5.index t (1 : Fin 2) * 128 + 128; omega

/-- THE OUTPUT ARRAY after the region: the layer of the arrays the region is entered with. -/
theorem final (c : Dev nD) : (dat2 (F := Ideal) V c).arrAt 5 cfg2.N = G V c :=
  (dat2 (F := Ideal) V c).arrAt_eq_of_cover 5 (G V c) (fun t _ => flushed_eq V c t) (cover)

end Cert.Sage.Region2

end
-- ==== Proof.SageRegion3.lean ====
/-
  What the read-out kernel leaves in its output array, as one function of the arrays it is entered with.

  The grid has 20 points; at point t the body sees rows 5000·t … 5000·t + 4999 of the three layer outputs and the whole
  three weights and bias, and its stored block is written back to the same rows of the output.  The read-out is
  row-wise, so the stored block is the same rows of the read-out of the whole arrays; the 20 blocks tile the 100000
  rows, so the output array is the read-out of the arrays.  The arrays are whatever the region is entered with.
-/
import proofs.«174320_j8134668058764_1_alg».proof.Proof.Gen.KernelIdeal.Frame
import proofs.«174320_j8134668058764_1_alg».proof.Proof.SageBody

set_option maxRecDepth 16384

noncomputable section

namespace Cert.Sage.Region3

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Sage

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a <;> rfl

/-- The printed index maps over the grid: the row-blocked windows sit at block row t, the others at block 0. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 1) = 0
    ∧ win3_7.index t (0 : Fin 2) = t.val ∧ win3_7.index t (1 : Fin 2) = 0 ∧ t.val < 20 :=
  (by decide +kernel : ∀ t : Fin grid3.N, _)

/-- Every block row is some point's. -/
theorem idx_onto : ∀ q0 : Fin 20, ∃ t : Fin cfg3.N, win3_7.index t = ![q0.val, 0] :=
  (by decide +kernel : ∀ q0 : Fin 20, ∃ t : Fin grid3.N, win3_7.index t = ![q0.val, 0])

/-- The read-out of the arrays the region is entered with. -/
abbrev G (c : Dev nD) : Mat 100000 64 :=
  fc (n := 100000) (V c main_v31) (V c main_v50) (V c main_v69) (V c main_v70) (V c main_v71) (V c main_v72) (V c main_arg6)

/-- A row-blocked input's block at point t, read at (p, k), is the array at row 5000·t + p. -/
theorem read0 (c : Dev nD) (t : Fin cfg3.N) (p : Fin 5000) (k : Fin 128) (P : Fin 100000) (hP : P.val = t.val * 5000 + p.val) :
    iblk3 V c 0 t (ix2 p k) = V c main_v31 (ix2 P k) := by
  obtain ⟨e00, e01, e10, e11, e20, e21, e30, e31, e40, e41, e50, e51, e60, e70, e71, ht⟩ := idx_facts t
  show V c main_v31 (((cfg3.win 0).blk t).view.emb (ix2 p k)) = V c main_v31 (ix2 P k)
  refine congrArg (V c main_v31) ?_
  funext a; apply Fin.ext
  match a with
  | ⟨0, _⟩ => show win3_0.index t (0 : Fin 2) * 5000 + 1 * p.val = P.val; omega
  | ⟨1, _⟩ => show win3_0.index t (1 : Fin 2) * 128 + 1 * k.val = k.val; omega

/-- A row-blocked input's block at point t, read at (p, k), is the array at row 5000·t + p. -/
theorem read1 (c : Dev nD) (t : Fin cfg3.N) (p : Fin 5000) (k : Fin 128) (P : Fin 100000) (hP : P.val = t.val * 5000 + p.val) :
    iblk3 V c 1 t (ix2 p k) = V c main_v50 (ix2 P k) := by
  obtain ⟨e00, e01, e10, e11, e20, e21, e30, e31, e40, e41, e50, e51, e60, e70, e71, ht⟩ := idx_facts t
  show V c main_v50 (((cfg3.win 1).blk t).view.emb (ix2 p k)) = V c main_v50 (ix2 P k)
  refine congrArg (V c main_v50) ?_
  funext a; apply Fin.ext
  match a with
  | ⟨0, _⟩ => show win3_1.index t (0 : Fin 2) * 5000 + 1 * p.val = P.val; omega
  | ⟨1, _⟩ => show win3_1.index t (1 : Fin 2) * 128 + 1 * k.val = k.val; omega

/-- A row-blocked input's block at point t, read at (p, k), is the array at row 5000·t + p. -/
theorem read2 (c : Dev nD) (t : Fin cfg3.N) (p : Fin 5000) (k : Fin 128) (P : Fin 100000) (hP : P.val = t.val * 5000 + p.val) :
    iblk3 V c 2 t (ix2 p k) = V c main_v69 (ix2 P k) := by
  obtain ⟨e00, e01, e10, e11, e20, e21, e30, e31, e40, e41, e50, e51, e60, e70, e71, ht⟩ := idx_facts t
  show V c main_v69 (((cfg3.win 2).blk t).view.emb (ix2 p k)) = V c main_v69 (ix2 P k)
  refine congrArg (V c main_v69) ?_
  funext a; apply Fin.ext
  match a with
  | ⟨0, _⟩ => show win3_2.index t (0 : Fin 2) * 5000 + 1 * p.val = P.val; omega
  | ⟨1, _⟩ => show win3_2.index t (1 : Fin 2) * 128 + 1 * k.val = k.val; omega

/-- A weight's block is the whole weight. -/
theorem read3 (c : Dev nD) (t : Fin cfg3.N) (k : Fin 128) (q : Fin 64) :
    iblk3 V c 3 t (ix2 k q) = V c main_v70 (ix2 k q) := by
  obtain ⟨e00, e01, e10, e11, e20, e21, e30, e31, e40, e41, e50, e51, e60, e70, e71, ht⟩ := idx_facts t
  show V c main_v70 (((cfg3.win 3).blk t).view.emb (ix2 k q)) = V c main_v70 (ix2 k q)
  refine congrArg (V c main_v70) ?_
  funext a; apply Fin.ext
  match a with
  | ⟨0, _⟩ => show win3_3.index t (0 : Fin 2) * 128 + 1 * k.val = k.val; omega
  | ⟨1, _⟩ => show win3_3.index t (1 : Fin 2) * 64 + 1 * q.val = q.val; omega

/-- A weight's block is the whole weight. -/
theorem read4 (c : Dev nD) (t : Fin cfg3.N) (k : Fin 128) (q : Fin 64) :
    iblk3 V c 4 t (ix2 k q) = V c main_v71 (ix2 k q) := by
  obtain ⟨e00, e01, e10, e11, e20, e21, e30, e31, e40, e41, e50, e51, e60, e70, e71, ht⟩ := idx_facts t
  show V c main_v71 (((cfg3.win 4).blk t).view.emb (ix2 k q)) = V c main_v71 (ix2 k q)
  refine congrArg (V c main_v71) ?_
  funext a; apply Fin.ext
  match a with
  | ⟨0, _⟩ => show win3_4.index t (0 : Fin 2) * 128 + 1 * k.val = k.val; omega
  | ⟨1, _⟩ => show win3_4.index t (1 : Fin 2) * 64 + 1 * q.val = q.val; omega

/-- A weight's block is the whole weight. -/
theorem read5 (c : Dev nD) (t : Fin cfg3.N) (k : Fin 128) (q : Fin 64) :
    iblk3 V c 5 t (ix2 k q) = V c main_v72 (ix2 k q) := by
  obtain ⟨e00, e01, e10, e11, e20, e21, e30, e31, e40, e41, e50, e51, e60, e70, e71, ht⟩ := idx_facts t
  show V c main_v72 (((cfg3.win 5).blk t).view.emb (ix2 k q)) = V c main_v72 (ix2 k q)
  refine congrArg (V c main_v72) ?_
  funext a; apply Fin.ext
  match a with
  | ⟨0, _⟩ => show win3_5.index t (0 : Fin 2) * 128 + 1 * k.val = k.val; omega
  | ⟨1, _⟩ => show win3_5.index t (1 : Fin 2) * 64 + 1 * q.val = q.val; omega

/-- The bias's block is the whole bias. -/
theorem read6 (c : Dev nD) (t : Fin cfg3.N) (q : Fin 64) :
    iblk3 V c 6 t (ix1 q) = V c main_arg6 (ix1 q) := by
  obtain ⟨e00, e01, e10, e11, e20, e21, e30, e31, e40, e41, e50, e51, e60, e70, e71, ht⟩ := idx_facts t
  show V c main_arg6 (((cfg3.win 6).blk t).view.emb (ix1 q)) = V c main_arg6 (ix1 q)
  refine congrArg (V c main_arg6) ?_
  funext a; apply Fin.ext
  match a with
  | ⟨0, _⟩ => show win3_6.index t (0 : Fin 1) * 64 + 1 * q.val = q.val; omega

/-- WHAT POINT t WRITES BACK is block t of the read-out of the entry arrays. -/
theorem flushed_eq (c : Dev nD) (t : Fin cfg3.N) :
    (dat3 (F := Ideal) V c).flushed 7 t = ((cfg3.win 7).blk t).view.read (Elt Ideal) (G V c) := by
  show (cfg3.win 7).cut (grid3.coords t) ((dat3 V c).after 7 t) = _
  rw [after3_7]
  unfold out3_7
  rw [View.canon_unit_zero hz]
  simp only [View.ld_unit_zero (S := S5000x128) hz, View.ld_unit_zero (S := S128x64) hz, View.ld_unit_zero (S := S64) hz1]
  obtain ⟨e00, e01, e10, e11, e20, e21, e30, e31, e40, e41, e50, e51, e60, e70, e71, ht⟩ := idx_facts t
  refine funext fun (j : S5000x64.Idx) => ?_
  obtain ⟨p, q, rfl⟩ : ∃ (p : Fin 5000) (q : Fin 64), j = ix2 p q := ⟨j 0, j 1, eq_ix2 j⟩
  have hemb : ((cfg3.win 7).blk t).view.emb (ix2 p q) = ix2 (⟨t.val * 5000 + p.val, by have := p.isLt; omega⟩ : Fin 100000) q := by
    funext a; apply Fin.ext
    match a with
    | ⟨0, _⟩ => show win3_7.index t (0 : Fin 2) * 5000 + 1 * p.val = t.val * 5000 + p.val; omega
    | ⟨1, _⟩ => show win3_7.index t (1 : Fin 2) * 64 + 1 * q.val = q.val; omega
  show k3_pay1 (iblk3 V c 0 t) (iblk3 V c 1 t) (iblk3 V c 2 t) (iblk3 V c 3 t) (iblk3 V c 4 t) (iblk3 V c 5 t) (iblk3 V c 6 t) (ix2 p q)
    = G V c (((cfg3.win 7).blk t).view.emb (ix2 p q))
  rw [hemb]
  refine (Body.pay3_apply (iblk3 V c 0 t) (iblk3 V c 1 t) (iblk3 V c 2 t) (iblk3 V c 3 t) (iblk3 V c 4 t) (iblk3 V c 5 t) (iblk3 V c 6 t) p q).trans ?_
  exact fcAt_congr (n := 5000) (N := 100000) (iblk3 V c 0 t) (iblk3 V c 1 t) (iblk3 V c 2 t) (V c main_v31) (V c main_v50) (V c main_v69)
    (iblk3 V c 3 t) (iblk3 V c 4 t) (iblk3 V c 5 t) (V c main_v70) (V c main_v71) (V c main_v72) (iblk3 V c 6 t) (V c main_arg6) p _ q
    (fun k => read0 V c t p k _ rfl) (fun k => read1 V c t p k _ rfl) (fun k => read2 V c t p k _ rfl)
    (fun k => read3 V c t k q) (fun k => read4 V c t k q) (fun k => read5 V c t k q) (read6 V c t q)

/-- An index of the array is in point t's block iff each coordinate is in the block's range on its axis. -/
theorem mem_blk (t : Fin cfg3.N) (i : S100000x64.Idx) :
    i ∈ ((cfg3.win 7).blk t).view.set ↔ ∀ a : Fin 2, win3_7.index t a * S5000x64.size a ≤ (i a).val ∧ (i a).val < win3_7.index t a * S5000x64.size a + S5000x64.size a := by
  show i ∈ ((View.whole main_v73).slice (win3_7.rect t)).set ↔ _
  rw [View.set_slice_whole, Rect.mem_set_unit]
  exact Iff.rfl

/-- The 20 blocks cover the array. -/
theorem cover (i : S100000x64.Idx) : ∃ t : Fin cfg3.N, (cfg3.win 7).flush t = true ∧ i ∈ ((cfg3.win 7).blk t).view.set := by
  have hi0 : (i 0).val < 100000 := (i 0).isLt
  have hi1 : (i 1).val < 64 := (i 1).isLt
  obtain ⟨t, ht⟩ := idx_onto ⟨(i 0).val / 5000, by omega⟩
  have q0 : win3_7.index t (0 : Fin 2) = (i 0).val / 5000 := congrFun ht 0
  have q1 : win3_7.index t (1 : Fin 2) = 0 := congrFun ht 1
  refine ⟨t, flush3_7 t, ?_⟩
  rw [mem_blk]
  intro a
  match a with
  | ⟨0, _⟩ => show win3_7.index t (0 : Fin 2) * 5000 ≤ (i 0).val ∧ (i 0).val < win3_7.index t (0 : Fin 2) * 5000 + 5000; omega
  | ⟨1, _⟩ => show win3_7.index t (1 : Fin 2) * 64 ≤ (i 1).val ∧ (i 1).val < win3_7.index t (1 : Fin 2) * 64 + 64; omega

/-- THE OUTPUT ARRAY after the region: the read-out of the arrays the region is entered with. -/
theorem final (c : Dev nD) : (dat3 (F := Ideal) V c).arrAt 7 cfg3.N = G V c :=
  (dat3 (F := Ideal) V c).arrAt_eq_of_cover 7 (G V c) (fun t _ => flushed_eq V c t) (cover)

end Cert.Sage.Region3

end
-- ==== Proof.SageKernelValue.lean ====
/-
  The kernel program's result array, as one function of the argument arrays.

  The contents of the buffers are followed from the launch through the eight segments.  After the first host stretch
  the first layer's kernel finds the mean of the input features (the aggregate times the reciprocal degree), the features
  and the first weights; it leaves the first layer's output.  The next stretch computes the mean of that output from the
  same edge rows and reciprocal column, and so on for three layers; the last stretch cuts the read-out weight into its
  three bands and the last kernel leaves the read-out of the three layer outputs.  A buffer that a stretch or a region
  does not write is carried along unchanged.
-/
import proofs.«174320_j8134668058764_1_alg».proof.Proof.Gen.KernelIdeal.Frame
import proofs.«174320_j8134668058764_1_alg».proof.Proof.SageHost
import proofs.«174320_j8134668058764_1_alg».proof.Proof.SageRegion0
import proofs.«174320_j8134668058764_1_alg».proof.Proof.SageRegion1
import proofs.«174320_j8134668058764_1_alg».proof.Proof.SageRegion2
import proofs.«174320_j8134668058764_1_alg».proof.Proof.SageRegion3

set_option maxRecDepth 16384

noncomputable section

namespace Cert.Sage.KV

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Sage

/-! ## A region's output from what its windows' arrays hold -/

section Regions
variable (V : (c : Dev nD) → (b : Ref sig .tc) → Buf (Elt Ideal) ((c : Thread nD τ).loc b)) (c : Dev nD)

theorem reg0 (A0 A1 : Mat 100000 128) (Wl Wr : Mat 128 128) (b : Vc 128)
    (h0 : V c main_v24 = A0) (h1 : V c main_arg0 = A1) (h2 : V c main_v26 = Wl) (h3 : V c main_v28 = Wr) (h4 : V c main_v30 = b) :
    (dat0 (F := Ideal) V c).arrAt 5 cfg0.N = layer (n := 100000) A0 A1 Wl Wr b := by
  subst h0 h1 h2 h3 h4; exact Region0.final V c

theorem reg1 (A0 A1 : Mat 100000 128) (Wl Wr : Mat 128 128) (b : Vc 128)
    (h0 : V c main_v43 = A0) (h1 : V c main_v31 = A1) (h2 : V c main_v45 = Wl) (h3 : V c main_v47 = Wr) (h4 : V c main_v49 = b) :
    (dat1 (F := Ideal) V c).arrAt 5 cfg1.N = layer (n := 100000) A0 A1 Wl Wr b := by
  subst h0 h1 h2 h3 h4; exact Region1.final V c

theorem reg2 (A0 A1 : Mat 100000 128) (Wl Wr : Mat 128 128) (b : Vc 128)
    (h0 : V c main_v62 = A0) (h1 : V c main_v50 = A1) (h2 : V c main_v64 = Wl) (h3 : V c main_v66 = Wr) (h4 : V c main_v68 = b) :
    (dat2 (F := Ideal) V c).arrAt 5 cfg2.N = layer (n := 100000) A0 A1 Wl Wr b := by
  subst h0 h1 h2 h3 h4; exact Region2.final V c

theorem reg3 (A0 A1 A2 : Mat 100000 128) (F0 F1 F2 : Mat 128 64) (b : Vc 64)
    (h0 : V c main_v31 = A0) (h1 : V c main_v50 = A1) (h2 : V c main_v69 = A2) (h3 : V c main_v70 = F0) (h4 : V c main_v71 = F1)
    (h5 : V c main_v72 = F2) (h6 : V c main_arg6 = b) :
    (dat3 (F := Ideal) V c).arrAt 7 cfg3.N = fc (n := 100000) A0 A1 A2 F0 F1 F2 b := by
  subst h0 h1 h2 h3 h4 h5 h6; exact Region3.final V c

end Regions

/-- The mean over given rows and reciprocal column is the mean of the edge list they came from. -/
theorem meanOf_eq (h h' : FVec Ideal S100000x128 .f32) (s d : IVec S1600000 32) (r : FVec Ideal S100000x1 .f32) (ei : IVec S2x1600000 32)
    (e0 : h = h') (e1 : s = src ei) (e2 : d = dst ei) (e3 : r = recipCol ei) : meanOf h s d r = meanMul h' ei := by
  subst e0 e1 e2 e3; rfl

variable (m : (ℓ : Loc nD τ sig) → Buf (Elt Ideal) ℓ) (ρ : Dev nD → PrngReg) (c : Dev nD)

/-! ## After the first host stretch -/

theorem s1_v24 : W1 m ρ c (Proc.devRef .tc main_v24) = meanMul (m ((c : Thread nD τ).loc main_arg0)) (m ((c : Thread nD τ).loc main_arg1)) := Host.h0_v24 (W0 m ρ c)
theorem s1_v26 : W1 m ρ c (Proc.devRef .tc main_v26) = w0 (m ((c : Thread nD τ).loc main_arg2)) := Host.h0_v26 (W0 m ρ c)
theorem s1_v28 : W1 m ρ c (Proc.devRef .tc main_v28) = w0 (m ((c : Thread nD τ).loc main_arg3)) := Host.h0_v28 (W0 m ρ c)
theorem s1_v30 : W1 m ρ c (Proc.devRef .tc main_v30) = b0 (m ((c : Thread nD τ).loc main_arg4)) := Host.h0_v30 (W0 m ρ c)
theorem s1_v1 : W1 m ρ c (Proc.devRef .tc main_v1) = src (m ((c : Thread nD τ).loc main_arg1)) := Host.h0_v1 (W0 m ρ c)
theorem s1_v3 : W1 m ρ c (Proc.devRef .tc main_v3) = dst (m ((c : Thread nD τ).loc main_arg1)) := Host.h0_v3 (W0 m ρ c)
theorem s1_v12 : W1 m ρ c (Proc.devRef .tc main_v12) = recipCol (m ((c : Thread nD τ).loc main_arg1)) := Host.h0_v12 (W0 m ρ c)
theorem s1_arg0 : W1 m ρ c (Proc.devRef .tc main_arg0) = (m ((c : Thread nD τ).loc main_arg0)) := Host.keep0_arg0 (W0 m ρ c)
theorem s1_arg2 : W1 m ρ c (Proc.devRef .tc main_arg2) = (m ((c : Thread nD τ).loc main_arg2)) := Host.keep0_arg2 (W0 m ρ c)
theorem s1_arg3 : W1 m ρ c (Proc.devRef .tc main_arg3) = (m ((c : Thread nD τ).loc main_arg3)) := Host.keep0_arg3 (W0 m ρ c)
theorem s1_arg4 : W1 m ρ c (Proc.devRef .tc main_arg4) = (m ((c : Thread nD τ).loc main_arg4)) := Host.keep0_arg4 (W0 m ρ c)
theorem s1_arg5 : W1 m ρ c (Proc.devRef .tc main_arg5) = (m ((c : Thread nD τ).loc main_arg5)) := Host.keep0_arg5 (W0 m ρ c)
theorem s1_arg6 : W1 m ρ c (Proc.devRef .tc main_arg6) = (m ((c : Thread nD τ).loc main_arg6)) := Host.keep0_arg6 (W0 m ρ c)

/-! ## After the first layer's region -/

theorem s2_v31 : W2 m ρ c (Proc.devRef .tc main_v31) = (out0 meanMul (m ((c : Thread nD τ).loc main_arg0)) (m ((c : Thread nD τ).loc main_arg1)) (m ((c : Thread nD τ).loc main_arg2)) (m ((c : Thread nD τ).loc main_arg3)) (m ((c : Thread nD τ).loc main_arg4))) :=
  (W2_arr m ρ c 5).trans (reg0 (V1 m ρ) c _ _ _ _ _ (s1_v24 m ρ c) (s1_arg0 m ρ c) (s1_v26 m ρ c) (s1_v28 m ρ c) (s1_v30 m ρ c))
theorem s2_v1 : W2 m ρ c (Proc.devRef .tc main_v1) = (src (m ((c : Thread nD τ).loc main_arg1))) := (W2_of_ne m ρ c main_v1 (by decide)).trans (s1_v1 m ρ c)
theorem s2_v3 : W2 m ρ c (Proc.devRef .tc main_v3) = (dst (m ((c : Thread nD τ).loc main_arg1))) := (W2_of_ne m ρ c main_v3 (by decide)).trans (s1_v3 m ρ c)
theorem s2_v12 : W2 m ρ c (Proc.devRef .tc main_v12) = (recipCol (m ((c : Thread nD τ).loc main_arg1))) := (W2_of_ne m ρ c main_v12 (by decide)).trans (s1_v12 m ρ c)
theorem s2_arg2 : W2 m ρ c (Proc.devRef .tc main_arg2) = (m ((c : Thread nD τ).loc main_arg2)) := (W2_of_ne m ρ c main_arg2 (by decide)).trans (s1_arg2 m ρ c)
theorem s2_arg3 : W2 m ρ c (Proc.devRef .tc main_arg3) = (m ((c : Thread nD τ).loc main_arg3)) := (W2_of_ne m ρ c main_arg3 (by decide)).trans (s1_arg3 m ρ c)
theorem s2_arg4 : W2 m ρ c (Proc.devRef .tc main_arg4) = (m ((c : Thread nD τ).loc main_arg4)) := (W2_of_ne m ρ c main_arg4 (by decide)).trans (s1_arg4 m ρ c)
theorem s2_arg5 : W2 m ρ c (Proc.devRef .tc main_arg5) = (m ((c : Thread nD τ).loc main_arg5)) := (W2_of_ne m ρ c main_arg5 (by decide)).trans (s1_arg5 m ρ c)
theorem s2_arg6 : W2 m ρ c (Proc.devRef .tc main_arg6) = (m ((c : Thread nD τ).loc main_arg6)) := (W2_of_ne m ρ c main_arg6 (by decide)).trans (s1_arg6 m ρ c)

/-! ## After the second host stretch -/

theorem s3_v43 : W3 m ρ c (Proc.devRef .tc main_v43) = meanMul (out0 meanMul (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg1)) :=
  (Host.h1_v43 (W2 m ρ c)).trans (meanOf_eq _ _ _ _ _ _ (s2_v31 m ρ c) (s2_v1 m ρ c) (s2_v3 m ρ c) (s2_v12 m ρ c))
theorem s3_v45 : W3 m ρ c (Proc.devRef .tc main_v45) = w1 (m ((c : Thread nD τ).loc main_arg2)) := (Host.h1_v45 (W2 m ρ c)).trans (congrArg w1 (s2_arg2 m ρ c))
theorem s3_v47 : W3 m ρ c (Proc.devRef .tc main_v47) = w1 (m ((c : Thread nD τ).loc main_arg3)) := (Host.h1_v47 (W2 m ρ c)).trans (congrArg w1 (s2_arg3 m ρ c))
theorem s3_v49 : W3 m ρ c (Proc.devRef .tc main_v49) = b1 (m ((c : Thread nD τ).loc main_arg4)) := (Host.h1_v49 (W2 m ρ c)).trans (congrArg b1 (s2_arg4 m ρ c))
theorem s3_v1 : W3 m ρ c (Proc.devRef .tc main_v1) = (src (m ((c : Thread nD τ).loc main_arg1))) := (Host.keep1_v1 (W2 m ρ c)).trans (s2_v1 m ρ c)
theorem s3_v3 : W3 m ρ c (Proc.devRef .tc main_v3) = (dst (m ((c : Thread nD τ).loc main_arg1))) := (Host.keep1_v3 (W2 m ρ c)).trans (s2_v3 m ρ c)
theorem s3_v12 : W3 m ρ c (Proc.devRef .tc main_v12) = (recipCol (m ((c : Thread nD τ).loc main_arg1))) := (Host.keep1_v12 (W2 m ρ c)).trans (s2_v12 m ρ c)
theorem s3_v31 : W3 m ρ c (Proc.devRef .tc main_v31) = (out0 meanMul (m ((c : Thread nD τ).loc main_arg0)) (m ((c : Thread nD τ).loc main_arg1)) (m ((c : Thread nD τ).loc main_arg2)) (m ((c : Thread nD τ).loc main_arg3)) (m ((c : Thread nD τ).loc main_arg4))) := (Host.keep1_v31 (W2 m ρ c)).trans (s2_v31 m ρ c)
theorem s3_arg2 : W3 m ρ c (Proc.devRef .tc main_arg2) = (m ((c : Thread nD τ).loc main_arg2)) := (Host.keep1_arg2 (W2 m ρ c)).trans (s2_arg2 m ρ c)
theorem s3_arg3 : W3 m ρ c (Proc.devRef .tc main_arg3) = (m ((c : Thread nD τ).loc main_arg3)) := (Host.keep1_arg3 (W2 m ρ c)).trans (s2_arg3 m ρ c)
theorem s3_arg4 : W3 m ρ c (Proc.devRef .tc main_arg4) = (m ((c : Thread nD τ).loc main_arg4)) := (Host.keep1_arg4 (W2 m ρ c)).trans (s2_arg4 m ρ c)
theorem s3_arg5 : W3 m ρ c (Proc.devRef .tc main_arg5) = (m ((c : Thread nD τ).loc main_arg5)) := (Host.keep1_arg5 (W2 m ρ c)).trans (s2_arg5 m ρ c)
theorem s3_arg6 : W3 m ρ c (Proc.devRef .tc main_arg6) = (m ((c : Thread nD τ).loc main_arg6)) := (Host.keep1_arg6 (W2 m ρ c)).trans (s2_arg6 m ρ c)

/-! ## After the second layer's region -/

theorem s4_v50 : W4 m ρ c (Proc.devRef .tc main_v50) = (out1 meanMul (m ((c : Thread nD τ).loc main_arg0)) (m ((c : Thread nD τ).loc main_arg1)) (m ((c : Thread nD τ).loc main_arg2)) (m ((c : Thread nD τ).loc main_arg3)) (m ((c : Thread nD τ).loc main_arg4))) :=
  (W4_arr m ρ c 5).trans (reg1 (V3 m ρ) c _ _ _ _ _ (s3_v43 m ρ c) (s3_v31 m ρ c) (s3_v45 m ρ c) (s3_v47 m ρ c) (s3_v49 m ρ c))
theorem s4_v31 : W4 m ρ c (Proc.devRef .tc main_v31) = (out0 meanMul (m ((c : Thread nD τ).loc main_arg0)) (m ((c : Thread nD τ).loc main_arg1)) (m ((c : Thread nD τ).loc main_arg2)) (m ((c : Thread nD τ).loc main_arg3)) (m ((c : Thread nD τ).loc main_arg4))) :=
  ((W4_arr m ρ c 1).trans (((dat1 (V3 m ρ) c).arrAt_in 1 rfl _).trans (A_eq1 (V3 m ρ) c 1))).trans (s3_v31 m ρ c)
theorem s4_v1 : W4 m ρ c (Proc.devRef .tc main_v1) = (src (m ((c : Thread nD τ).loc main_arg1))) := (W4_of_ne m ρ c main_v1 (by decide)).trans (s3_v1 m ρ c)
theorem s4_v3 : W4 m ρ c (Proc.devRef .tc main_v3) = (dst (m ((c : Thread nD τ).loc main_arg1))) := (W4_of_ne m ρ c main_v3 (by decide)).trans (s3_v3 m ρ c)
theorem s4_v12 : W4 m ρ c (Proc.devRef .tc main_v12) = (recipCol (m ((c : Thread nD τ).loc main_arg1))) := (W4_of_ne m ρ c main_v12 (by decide)).trans (s3_v12 m ρ c)
theorem s4_arg2 : W4 m ρ c (Proc.devRef .tc main_arg2) = (m ((c : Thread nD τ).loc main_arg2)) := (W4_of_ne m ρ c main_arg2 (by decide)).trans (s3_arg2 m ρ c)
theorem s4_arg3 : W4 m ρ c (Proc.devRef .tc main_arg3) = (m ((c : Thread nD τ).loc main_arg3)) := (W4_of_ne m ρ c main_arg3 (by decide)).trans (s3_arg3 m ρ c)
theorem s4_arg4 : W4 m ρ c (Proc.devRef .tc main_arg4) = (m ((c : Thread nD τ).loc main_arg4)) := (W4_of_ne m ρ c main_arg4 (by decide)).trans (s3_arg4 m ρ c)
theorem s4_arg5 : W4 m ρ c (Proc.devRef .tc main_arg5) = (m ((c : Thread nD τ).loc main_arg5)) := (W4_of_ne m ρ c main_arg5 (by decide)).trans (s3_arg5 m ρ c)
theorem s4_arg6 : W4 m ρ c (Proc.devRef .tc main_arg6) = (m ((c : Thread nD τ).loc main_arg6)) := (W4_of_ne m ρ c main_arg6 (by decide)).trans (s3_arg6 m ρ c)

/-! ## After the third host stretch -/

theorem s5_v62 : W5 m ρ c (Proc.devRef .tc main_v62) = meanMul (out1 meanMul (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg1)) :=
  (Host.h2_v62 (W4 m ρ c)).trans (meanOf_eq _ _ _ _ _ _ (s4_v50 m ρ c) (s4_v1 m ρ c) (s4_v3 m ρ c) (s4_v12 m ρ c))
theorem s5_v64 : W5 m ρ c (Proc.devRef .tc main_v64) = w2 (m ((c : Thread nD τ).loc main_arg2)) := (Host.h2_v64 (W4 m ρ c)).trans (congrArg w2 (s4_arg2 m ρ c))
theorem s5_v66 : W5 m ρ c (Proc.devRef .tc main_v66) = w2 (m ((c : Thread nD τ).loc main_arg3)) := (Host.h2_v66 (W4 m ρ c)).trans (congrArg w2 (s4_arg3 m ρ c))
theorem s5_v68 : W5 m ρ c (Proc.devRef .tc main_v68) = b2 (m ((c : Thread nD τ).loc main_arg4)) := (Host.h2_v68 (W4 m ρ c)).trans (congrArg b2 (s4_arg4 m ρ c))
theorem s5_v31 : W5 m ρ c (Proc.devRef .tc main_v31) = (out0 meanMul (m ((c : Thread nD τ).loc main_arg0)) (m ((c : Thread nD τ).loc main_arg1)) (m ((c : Thread nD τ).loc main_arg2)) (m ((c : Thread nD τ).loc main_arg3)) (m ((c : Thread nD τ).loc main_arg4))) := (Host.keep2_v31 (W4 m ρ c)).trans (s4_v31 m ρ c)
theorem s5_v50 : W5 m ρ c (Proc.devRef .tc main_v50) = (out1 meanMul (m ((c : Thread nD τ).loc main_arg0)) (m ((c : Thread nD τ).loc main_arg1)) (m ((c : Thread nD τ).loc main_arg2)) (m ((c : Thread nD τ).loc main_arg3)) (m ((c : Thread nD τ).loc main_arg4))) := (Host.keep2_v50 (W4 m ρ c)).trans (s4_v50 m ρ c)
theorem s5_arg5 : W5 m ρ c (Proc.devRef .tc main_arg5) = (m ((c : Thread nD τ).loc main_arg5)) := (Host.keep2_arg5 (W4 m ρ c)).trans (s4_arg5 m ρ c)
theorem s5_arg6 : W5 m ρ c (Proc.devRef .tc main_arg6) = (m ((c : Thread nD τ).loc main_arg6)) := (Host.keep2_arg6 (W4 m ρ c)).trans (s4_arg6 m ρ c)

/-! ## After the third layer's region -/

theorem s6_v69 : W6 m ρ c (Proc.devRef .tc main_v69) = (out2 meanMul (m ((c : Thread nD τ).loc main_arg0)) (m ((c : Thread nD τ).loc main_arg1)) (m ((c : Thread nD τ).loc main_arg2)) (m ((c : Thread nD τ).loc main_arg3)) (m ((c : Thread nD τ).loc main_arg4))) :=
  (W6_arr m ρ c 5).trans (reg2 (V5 m ρ) c _ _ _ _ _ (s5_v62 m ρ c) (s5_v50 m ρ c) (s5_v64 m ρ c) (s5_v66 m ρ c) (s5_v68 m ρ c))
theorem s6_v50 : W6 m ρ c (Proc.devRef .tc main_v50) = (out1 meanMul (m ((c : Thread nD τ).loc main_arg0)) (m ((c : Thread nD τ).loc main_arg1)) (m ((c : Thread nD τ).loc main_arg2)) (m ((c : Thread nD τ).loc main_arg3)) (m ((c : Thread nD τ).loc main_arg4))) :=
  ((W6_arr m ρ c 1).trans (((dat2 (V5 m ρ) c).arrAt_in 1 rfl _).trans (A_eq2 (V5 m ρ) c 1))).trans (s5_v50 m ρ c)
theorem s6_v31 : W6 m ρ c (Proc.devRef .tc main_v31) = (out0 meanMul (m ((c : Thread nD τ).loc main_arg0)) (m ((c : Thread nD τ).loc main_arg1)) (m ((c : Thread nD τ).loc main_arg2)) (m ((c : Thread nD τ).loc main_arg3)) (m ((c : Thread nD τ).loc main_arg4))) := (W6_of_ne m ρ c main_v31 (by decide)).trans (s5_v31 m ρ c)
theorem s6_arg5 : W6 m ρ c (Proc.devRef .tc main_arg5) = (m ((c : Thread nD τ).loc main_arg5)) := (W6_of_ne m ρ c main_arg5 (by decide)).trans (s5_arg5 m ρ c)
theorem s6_arg6 : W6 m ρ c (Proc.devRef .tc main_arg6) = (m ((c : Thread nD τ).loc main_arg6)) := (W6_of_ne m ρ c main_arg6 (by decide)).trans (s5_arg6 m ρ c)

/-! ## After the fourth host stretch -/

theorem s7_v70 : W7 m ρ c (Proc.devRef .tc main_v70) = fw0 (m ((c : Thread nD τ).loc main_arg5)) := (Host.h3_v70 (W6 m ρ c)).trans (congrArg fw0 (s6_arg5 m ρ c))
theorem s7_v71 : W7 m ρ c (Proc.devRef .tc main_v71) = fw1 (m ((c : Thread nD τ).loc main_arg5)) := (Host.h3_v71 (W6 m ρ c)).trans (congrArg fw1 (s6_arg5 m ρ c))
theorem s7_v72 : W7 m ρ c (Proc.devRef .tc main_v72) = fw2 (m ((c : Thread nD τ).loc main_arg5)) := (Host.h3_v72 (W6 m ρ c)).trans (congrArg fw2 (s6_arg5 m ρ c))
theorem s7_v31 : W7 m ρ c (Proc.devRef .tc main_v31) = (out0 meanMul (m ((c : Thread nD τ).loc main_arg0)) (m ((c : Thread nD τ).loc main_arg1)) (m ((c : Thread nD τ).loc main_arg2)) (m ((c : Thread nD τ).loc main_arg3)) (m ((c : Thread nD τ).loc main_arg4))) := (Host.keep3_v31 (W6 m ρ c)).trans (s6_v31 m ρ c)
theorem s7_v50 : W7 m ρ c (Proc.devRef .tc main_v50) = (out1 meanMul (m ((c : Thread nD τ).loc main_arg0)) (m ((c : Thread nD τ).loc main_arg1)) (m ((c : Thread nD τ).loc main_arg2)) (m ((c : Thread nD τ).loc main_arg3)) (m ((c : Thread nD τ).loc main_arg4))) := (Host.keep3_v50 (W6 m ρ c)).trans (s6_v50 m ρ c)
theorem s7_v69 : W7 m ρ c (Proc.devRef .tc main_v69) = (out2 meanMul (m ((c : Thread nD τ).loc main_arg0)) (m ((c : Thread nD τ).loc main_arg1)) (m ((c : Thread nD τ).loc main_arg2)) (m ((c : Thread nD τ).loc main_arg3)) (m ((c : Thread nD τ).loc main_arg4))) := (Host.keep3_v69 (W6 m ρ c)).trans (s6_v69 m ρ c)
theorem s7_arg6 : W7 m ρ c (Proc.devRef .tc main_arg6) = (m ((c : Thread nD τ).loc main_arg6)) := (Host.keep3_arg6 (W6 m ρ c)).trans (s6_arg6 m ρ c)

/-! ## The result -/

/-- THE RESULT ARRAY at the last boundary: the network of the argument arrays, the mean written as a product. -/
theorem value : W8 m ρ c (Proc.devRef .tc main_v73) = net meanMul (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (W8_arr m ρ c 7).trans (reg3 (V7 m ρ) c _ _ _ _ _ _ _ (s7_v31 m ρ c) (s7_v50 m ρ c) (s7_v69 m ρ c) (s7_v70 m ρ c) (s7_v71 m ρ c)
    (s7_v72 m ρ c) (s7_arg6 m ρ c))

end Cert.Sage.KV

end
-- ==== Proof.LibBandSplit.lean ====
/-
  Sums over an index range cut into bands, and three matrices joined side by side read at an index.

  A sum over the 2n + 1 positions 0 … 2n is the sum over the first n, plus the sum over the next n, plus the last
  term; a sum over 2n positions is the sum over the first n plus the sum over the next n. Only the laws of a commutative
  monoid are used, so the statements hold over the extended reals with no finiteness side condition.

  Three matrices of A, B and C columns joined side by side (a concatenation along axis 1 into T columns): at column
  j < A the join reads the first at column j, at column A + i it reads the second at column i, and at column A + B + i
  it reads the third at column i. Any element type.
-/
import Mathlib.Algebra.BigOperators.Fin
import Idealize.ShloMosaic.Lib.Pipeline.Value
import Idealize.ShloMosaic.Lib.ValueIdx

namespace Cert.Lib

open Idealize.ShloMosaic Idealize.ShloMosaic.ValueIdx

/-- A sum over 2n positions is the sum over the first n plus the sum over the last n. -/
theorem sum_two_bands {M : Type*} [AddCommMonoid M] (n : ℕ) (f : Fin (n + n) → M) :
    ∑ k, f k = (∑ k : Fin n, f ⟨k.val, by have := k.isLt; omega⟩) + (∑ k : Fin n, f ⟨n + k.val, by have := k.isLt; omega⟩) := by
  rw [Fin.sum_univ_add]
  rfl

/-- A sum over 2n + 1 positions is the sum over the first n, plus the sum over the next n, plus the last term. -/
theorem sum_two_bands_and_last {M : Type*} [AddCommMonoid M] (n : ℕ) (f : Fin (n + n + 1) → M) :
    ∑ k, f k = (∑ k : Fin n, f ⟨k.val, by have := k.isLt; omega⟩) + (∑ k : Fin n, f ⟨n + k.val, by have := k.isLt; omega⟩)
      + f ⟨n + n, by omega⟩ := by
  rw [Fin.sum_univ_castSucc, Fin.sum_univ_add]
  rfl

namespace ConcatTriple

variable {α : Type}

/-- Three matrices joined side by side, read in the FIRST one's columns. -/
theorem cols_first {R A B C T : Nat} (x₁ : (⟨2, ![R, A]⟩ : Shape).Idx → α) (x₂ : (⟨2, ![R, B]⟩ : Shape).Idx → α)
    (x₃ : (⟨2, ![R, C]⟩ : Shape).Idx → α)
    (h : Shape.Concatenates [⟨2, ![R, A]⟩, ⟨2, ![R, B]⟩, ⟨2, ![R, C]⟩] ⟨2, ![R, T]⟩ 1) (r : Fin R) (j : Fin T) (i : Fin A)
    (hi : i.val = j.val) :
    concatenate ⟨2, ![R, T]⟩ 1 [⟨⟨2, ![R, A]⟩, x₁⟩, ⟨⟨2, ![R, B]⟩, x₂⟩, ⟨⟨2, ![R, C]⟩, x₃⟩] h (ix2 r j) = x₁ (ix2 r i) :=
  concatenate_apply_piece (t := ⟨2, ![R, T]⟩) (1 : Fin 2) [⟨⟨2, ![R, A]⟩, x₁⟩, ⟨⟨2, ![R, B]⟩, x₂⟩, ⟨⟨2, ![R, C]⟩, x₃⟩] h (ix2 r j) 0 (Nat.zero_lt_succ _) ⟨2, ![R, A]⟩ x₁ rfl rfl 0 rfl (ix2 r i)
    (fun b => match b with
      | ⟨0, _⟩ => fun _ => rfl
      | ⟨1, _⟩ => fun hb => absurd rfl hb)
    (by show 0 + i.val = j.val; omega)

/-- Three matrices joined side by side, read in the SECOND one's columns: column A + i of the join is its column i. -/
theorem cols_second {R A B C T : Nat} (x₁ : (⟨2, ![R, A]⟩ : Shape).Idx → α) (x₂ : (⟨2, ![R, B]⟩ : Shape).Idx → α)
    (x₃ : (⟨2, ![R, C]⟩ : Shape).Idx → α)
    (h : Shape.Concatenates [⟨2, ![R, A]⟩, ⟨2, ![R, B]⟩, ⟨2, ![R, C]⟩] ⟨2, ![R, T]⟩ 1) (r : Fin R) (j : Fin T) (i : Fin B)
    (hi : A + i.val = j.val) :
    concatenate ⟨2, ![R, T]⟩ 1 [⟨⟨2, ![R, A]⟩, x₁⟩, ⟨⟨2, ![R, B]⟩, x₂⟩, ⟨⟨2, ![R, C]⟩, x₃⟩] h (ix2 r j) = x₂ (ix2 r i) :=
  concatenate_apply_piece (t := ⟨2, ![R, T]⟩) (1 : Fin 2) [⟨⟨2, ![R, A]⟩, x₁⟩, ⟨⟨2, ![R, B]⟩, x₂⟩, ⟨⟨2, ![R, C]⟩, x₃⟩] h (ix2 r j) 1 (Nat.succ_lt_succ (Nat.zero_lt_succ _)) ⟨2, ![R, B]⟩ x₂ rfl rfl A
    (by show A + 0 = A; rfl) (ix2 r i)
    (fun b => match b with
      | ⟨0, _⟩ => fun _ => rfl
      | ⟨1, _⟩ => fun hb => absurd rfl hb)
    hi

/-- Three matrices joined side by side, read in the THIRD one's columns: column A + B + i of the join is its column i. -/
theorem cols_third {R A B C T : Nat} (x₁ : (⟨2, ![R, A]⟩ : Shape).Idx → α) (x₂ : (⟨2, ![R, B]⟩ : Shape).Idx → α)
    (x₃ : (⟨2, ![R, C]⟩ : Shape).Idx → α)
    (h : Shape.Concatenates [⟨2, ![R, A]⟩, ⟨2, ![R, B]⟩, ⟨2, ![R, C]⟩] ⟨2, ![R, T]⟩ 1) (r : Fin R) (j : Fin T) (i : Fin C)
    (hi : A + B + i.val = j.val) :
    concatenate ⟨2, ![R, T]⟩ 1 [⟨⟨2, ![R, A]⟩, x₁⟩, ⟨⟨2, ![R, B]⟩, x₂⟩, ⟨⟨2, ![R, C]⟩, x₃⟩] h (ix2 r j) = x₃ (ix2 r i) :=
  concatenate_apply_piece (t := ⟨2, ![R, T]⟩) (1 : Fin 2) [⟨⟨2, ![R, A]⟩, x₁⟩, ⟨⟨2, ![R, B]⟩, x₂⟩, ⟨⟨2, ![R, C]⟩, x₃⟩] h (ix2 r j) 2 (Nat.succ_lt_succ (Nat.succ_lt_succ (Nat.zero_lt_succ _))) ⟨2, ![R, C]⟩ x₃ rfl rfl (A + B)
    (by show A + (B + 0) = A + B; rfl) (ix2 r i)
    (fun b => match b with
      | ⟨0, _⟩ => fun _ => rfl
      | ⟨1, _⟩ => fun hb => absurd rfl hb)
    hi

end ConcatTriple

end Cert.Lib
-- ==== Proof.SageRef.lean ====
/-
  The reference program's result array, as one function of the argument arrays.

  The reference applies, three times, a layer — the mean of the incoming features (the aggregate DIVIDED by
  max(degree, 1)) times one weight, plus the features times another, plus the bias spread down the rows, clamped below
  at zero — then joins the three outputs side by side into 384 columns and multiplies by the stacked read-out weight,
  adding the read-out bias.  Entry by entry a layer is the layer of the specification; and the product of the joined
  outputs with the stacked weight splits, along the 384 contracted positions, into the three bands of 128: the sum of
  the three outputs' products with the three bands of the weight.  Only associativity and commutativity of the sum are
  used, so nothing needs to be finite.
-/
import proofs.«174320_j8134668058764_1_alg».proof.Proof.Gen.ReferenceIdeal.Read
import proofs.«174320_j8134668058764_1_alg».proof.Proof.Gen.KernelIdeal
import proofs.«174320_j8134668058764_1_alg».proof.Proof.SageShared
import proofs.«174320_j8134668058764_1_alg».proof.Proof.LibPlainDot
import proofs.«174320_j8134668058764_1_alg».proof.Proof.LibBandSplit
import Idealize.ShloMosaic.Lib.ValueLayout
import Idealize.ShloMosaic.Lib.Pipeline.Value

set_option maxRecDepth 16384

noncomputable section

namespace Cert.Sage.Ref

open Idealize.ShloMosaic Idealize.ShloMosaic.ValueIdx
open Cert.ReferenceIdeal Cert.ReferenceIdeal.Facts₀ Cert.ReferenceIdeal.Read

/-! ## One layer -/

/-- The reference's layer: two products, the bias spread down the rows, clamped below at zero. -/
def refLayer (mean h : FVec Ideal S100000x128 .f32) (wl wr : FVec Ideal S128x128 .f32) (b : FVec Ideal S128 .f32) :
    FVec Ideal S100000x128 .f32 :=
  maximumf
    (addf
      (addf (Host.dotGeneral (F := Ideal) dot_S100000x128_S128x128_S100000x128_1_0_0_1_n_n none mean wl)
        (Host.dotGeneral (F := Ideal) dot_S100000x128_S128x128_S100000x128_1_0_0_1_n_n none h wr))
      (broadcastInDim S100000x128 ![0, 1] bcast_S1x128_S100000x128_0_1 (broadcastInDim S1x128 ![1] bcast_S128_S1x128_1 b)))
    (broadcastInDim S100000x128 ![] bcast_S_S100000x128 (constant (F := Ideal) S_ .f32 0x00000000#32))

/-- A vector spread as a row and then down n rows, read at (p, q), is the vector at q. -/
theorem rowSpread_apply {α : Type} {n w : Nat} (hw : w ≠ 1) (v : (⟨1, ![w]⟩ : Shape).Idx → α)
    (h1 : (⟨1, ![w]⟩ : Shape).BroadcastsInDim ⟨2, ![1, w]⟩ ![1])
    (h2 : (⟨2, ![1, w]⟩ : Shape).BroadcastsInDim ⟨2, ![n, w]⟩ ![0, 1]) (p : Fin n) (q : Fin w) :
    broadcastInDim ⟨2, ![n, w]⟩ ![0, 1] h2 (broadcastInDim ⟨2, ![1, w]⟩ ![1] h1 v) (ix2 p q) = v (ix1 q) := by
  refine (broadcastInDim_apply _ h2 _ (ix2 p q) (ix2 (0 : Fin 1) q) fun a => ?_).trans
    (broadcastInDim_apply _ h1 v (ix2 (0 : Fin 1) q) (ix1 q) fun a => ?_)
  · match a with
    | ⟨0, _⟩ => show 0 = if (1 : Nat) = 1 then 0 else p.val; rw [if_pos rfl]
    | ⟨1, _⟩ => show q.val = if w = 1 then 0 else q.val; rw [if_neg hw]
  · match a with
    | ⟨0, _⟩ => show q.val = if w = 1 then 0 else q.val; rw [if_neg hw]

/-- The reference's layer is the specification's layer. -/
theorem refLayer_eq (mean h : FVec Ideal S100000x128 .f32) (wl wr : FVec Ideal S128x128 .f32) (b : FVec Ideal S128 .f32) :
    refLayer mean h wl wr b = Cert.Sage.layer (n := 100000) mean h wl wr b := by
  funext i
  obtain ⟨p, q, rfl⟩ : ∃ (p : Fin 100000) (q : Fin 128), i = ix2 p q := ⟨i 0, i 1, eq_ix2 i⟩
  show max ((Host.dotGeneral (F := Ideal) dot_S100000x128_S128x128_S100000x128_1_0_0_1_n_n none mean wl) (ix2 p q)
      + (Host.dotGeneral (F := Ideal) dot_S100000x128_S128x128_S100000x128_1_0_0_1_n_n none h wr) (ix2 p q)
      + (broadcastInDim S100000x128 ![0, 1] bcast_S1x128_S100000x128_0_1 (broadcastInDim S1x128 ![1] bcast_S128_S1x128_1 b)) (ix2 p q))
      ((broadcastInDim S100000x128 ![] bcast_S_S100000x128 (constant (F := Ideal) S_ .f32 0x00000000#32)) (ix2 p q))
    = Cert.Sage.layerAt (n := 100000) mean h wl wr b p q
  unfold Cert.Sage.layerAt
  refine congrArg₂ max (congrArg₂ (· + ·) (congrArg₂ (· + ·) ?_ ?_) ?_) ?_
  · exact Cert.Lib.dotGeneral_plain_apply (M := 100000) (K := 128) (N := 128)
      dot_S100000x128_S128x128_S100000x128_1_0_0_1_n_n_wf none HostSchedule.single mean wl p q
  · exact Cert.Lib.dotGeneral_plain_apply (M := 100000) (K := 128) (N := 128)
      dot_S100000x128_S128x128_S100000x128_1_0_0_1_n_n_wf none HostSchedule.single h wr p q
  · exact rowSpread_apply (n := 100000) (w := 128) (by decide) b bcast_S128_S1x128_1 bcast_S1x128_S100000x128_0_1 p q
  · exact broadcastInDim_apply _ bcast_S_S100000x128 _ (ix2 p q) ix0 (fun a => a.elim0)

/-! ## The read-out -/

/-- The reference's read-out: the three outputs joined side by side, times the stacked weight, plus the bias. -/
def refFc (l0 l1 l2 : FVec Ideal S100000x128 .f32) (fw : FVec Ideal S384x64 .f32) (fb : FVec Ideal S64 .f32) :
    FVec Ideal S100000x64 .f32 :=
  addf
    (Host.dotGeneral (F := Ideal) dot_S100000x384_S384x64_S100000x64_1_0_0_1_n_n none
      (concatenate S100000x384 1 [⟨S100000x128, l0⟩, ⟨S100000x128, l1⟩, ⟨S100000x128, l2⟩]
        concatenates_S100000x128_S100000x128_S100000x128_S100000x384_d1) fw)
    (broadcastInDim S100000x64 ![0, 1] bcast_S1x64_S100000x64_0_1 (broadcastInDim S1x64 ![1] bcast_S64_S1x64_1 fb))

/-- The reference's read-out is the specification's, over the three bands of the stacked weight. -/
theorem refFc_eq (l0 l1 l2 : FVec Ideal S100000x128 .f32) (fw : FVec Ideal S384x64 .f32) (fb : FVec Ideal S64 .f32) :
    refFc l0 l1 l2 fw fb
      = Cert.Sage.fc (n := 100000) l0 l1 l2 (Cert.Sage.fw0 fw) (Cert.Sage.fw1 fw) (Cert.Sage.fw2 fw) fb := by
  funext i
  obtain ⟨p, q, rfl⟩ : ∃ (p : Fin 100000) (q : Fin 64), i = ix2 p q := ⟨i 0, i 1, eq_ix2 i⟩
  show (Host.dotGeneral (F := Ideal) dot_S100000x384_S384x64_S100000x64_1_0_0_1_n_n none
        (concatenate S100000x384 1 [⟨S100000x128, l0⟩, ⟨S100000x128, l1⟩, ⟨S100000x128, l2⟩]
          concatenates_S100000x128_S100000x128_S100000x128_S100000x384_d1) fw) (ix2 p q)
      + (broadcastInDim S100000x64 ![0, 1] bcast_S1x64_S100000x64_0_1 (broadcastInDim S1x64 ![1] bcast_S64_S1x64_1 fb)) (ix2 p q)
    = Cert.Sage.fcAt (n := 100000) l0 l1 l2 (Cert.Sage.fw0 fw) (Cert.Sage.fw1 fw) (Cert.Sage.fw2 fw) fb p q
  unfold Cert.Sage.fcAt
  refine congrArg₂ (· + ·) ?_ ?_
  · refine (Cert.Lib.dotGeneral_plain_apply (M := 100000) (K := 384) (N := 64)
      dot_S100000x384_S384x64_S100000x64_1_0_0_1_n_n_wf none HostSchedule.single _ fw p q).trans ?_
    rw [Cert.Sage.sum_three_bands]
    refine congrArg₂ (· + ·) (congrArg₂ (· + ·) ?_ ?_) ?_
    · refine Finset.sum_congr rfl fun k _ => congrArg₂ (· * ·) ?_ ?_
      · exact Cert.Lib.ConcatTriple.cols_first (R := 100000) (A := 128) (B := 128) (C := 128) (T := 384) l0 l1 l2
          concatenates_S100000x128_S100000x128_S100000x128_S100000x384_d1 p _ k rfl
      · exact (slice2_axis0_apply (n0 := 384) (n1 := 64) (m := 128) 0 fw _ k q _ (by show k.val = 0 + k.val; omega)).symm
    · refine Finset.sum_congr rfl fun k _ => congrArg₂ (· * ·) ?_ ?_
      · exact Cert.Lib.ConcatTriple.cols_second (R := 100000) (A := 128) (B := 128) (C := 128) (T := 384) l0 l1 l2
          concatenates_S100000x128_S100000x128_S100000x128_S100000x384_d1 p _ k rfl
      · exact (slice2_axis0_apply (n0 := 384) (n1 := 64) (m := 128) 128 fw _ k q _ rfl).symm
    · refine Finset.sum_congr rfl fun k _ => congrArg₂ (· * ·) ?_ ?_
      · exact Cert.Lib.ConcatTriple.cols_third (R := 100000) (A := 128) (B := 128) (C := 128) (T := 384) l0 l1 l2
          concatenates_S100000x128_S100000x128_S100000x128_S100000x384_d1 p _ k rfl
      · exact (slice2_axis0_apply (n0 := 384) (n1 := 64) (m := 128) 256 fw _ k q _ rfl).symm
  · exact rowSpread_apply (n := 100000) (w := 64) (by decide) fb bcast_S64_S1x64_1 bcast_S1x64_S100000x64_0_1 p q

end Cert.Sage.Ref

end
-- ==== Proof.SageRefValue.lean ====
/-
  The reference program's run, read back as the network of the argument arrays.

  The reference's operations, composed, are: the mean written as a quotient, the layer, three times, and the read-out of
  the joined outputs.  Each stage of the composed term is, by unfolding the names, the corresponding function of the
  stage before; the layers and the read-out are then the specification's by the entry-by-entry lemmas.
-/
import proofs.«174320_j8134668058764_1_alg».proof.Proof.SageRef

set_option maxRecDepth 16384

noncomputable section

namespace Cert.Sage.Ref

open Idealize.ShloMosaic Idealize.ShloMosaic.ValueIdx
open Cert.ReferenceIdeal Cert.ReferenceIdeal.Facts₀ Cert.ReferenceIdeal.Read

variable (x0 : (⟨S100000x128, .f32⟩ : BufTy).Contents (Elt Ideal)) (x1 : (⟨S2x1600000, .i32⟩ : BufTy).Contents (Elt Ideal))
  (x2 x3 : (⟨S3x128x128, .f32⟩ : BufTy).Contents (Elt Ideal)) (x4 : (⟨S3x128, .f32⟩ : BufTy).Contents (Elt Ideal))
  (x5 : (⟨S384x64, .f32⟩ : BufTy).Contents (Elt Ideal)) (x6 : (⟨S64, .f32⟩ : BufTy).Contents (Elt Ideal))

/-! ## The three means are the quotient form of the mean -/

set_option maxHeartbeats 1000000 in
theorem mean0 : val_main_v28 (F := Ideal) x0 x1 = Cert.Sage.meanDiv x0 x1 := rfl

set_option maxHeartbeats 1000000 in
theorem mean1 : val_main_v60 (F := Ideal) x0 x1 x2 x3 x4 = Cert.Sage.meanDiv (val_main_v35 (F := Ideal) x0 x1 x2 x3 x4) x1 := rfl

set_option maxHeartbeats 1000000 in
theorem mean2 : val_main_v92 (F := Ideal) x0 x1 x2 x3 x4 = Cert.Sage.meanDiv (val_main_v67 (F := Ideal) x0 x1 x2 x3 x4) x1 := rfl

/-! ## The three layers -/

set_option maxHeartbeats 1000000 in
theorem lay0 : val_main_v35 (F := Ideal) x0 x1 x2 x3 x4
    = refLayer (val_main_v28 (F := Ideal) x0 x1) x0 (Cert.Sage.w0 x2) (Cert.Sage.w0 x3) (Cert.Sage.b0 x4) := rfl

set_option maxHeartbeats 1000000 in
theorem lay1 : val_main_v67 (F := Ideal) x0 x1 x2 x3 x4
    = refLayer (val_main_v60 (F := Ideal) x0 x1 x2 x3 x4) (val_main_v35 (F := Ideal) x0 x1 x2 x3 x4)
        (Cert.Sage.w1 x2) (Cert.Sage.w1 x3) (Cert.Sage.b1 x4) := rfl

set_option maxHeartbeats 1000000 in
theorem lay2 : val_main_v99 (F := Ideal) x0 x1 x2 x3 x4
    = refLayer (val_main_v92 (F := Ideal) x0 x1 x2 x3 x4) (val_main_v67 (F := Ideal) x0 x1 x2 x3 x4)
        (Cert.Sage.w2 x2) (Cert.Sage.w2 x3) (Cert.Sage.b2 x4) := rfl

set_option maxHeartbeats 1000000 in
theorem readout : val_main_v104 (F := Ideal) x0 x1 x2 x3 x4 x5 x6
    = refFc (val_main_v35 (F := Ideal) x0 x1 x2 x3 x4) (val_main_v67 (F := Ideal) x0 x1 x2 x3 x4)
        (val_main_v99 (F := Ideal) x0 x1 x2 x3 x4) x5 x6 := rfl

/-! ## The layers' outputs and the result -/

theorem o0 : val_main_v35 (F := Ideal) x0 x1 x2 x3 x4 = Cert.Sage.out0 Cert.Sage.meanDiv x0 x1 x2 x3 x4 := by
  rw [lay0, refLayer_eq, mean0]; rfl

theorem o1 : val_main_v67 (F := Ideal) x0 x1 x2 x3 x4 = Cert.Sage.out1 Cert.Sage.meanDiv x0 x1 x2 x3 x4 := by
  rw [lay1, refLayer_eq, mean1, o0]; rfl

theorem o2 : val_main_v99 (F := Ideal) x0 x1 x2 x3 x4 = Cert.Sage.out2 Cert.Sage.meanDiv x0 x1 x2 x3 x4 := by
  rw [lay2, refLayer_eq, mean2, o1]; rfl

/-- THE REFERENCE'S RESULT: the network of the argument arrays, the mean written as a quotient. -/
theorem value : val_main_v104 (F := Ideal) x0 x1 x2 x3 x4 x5 x6 = Cert.Sage.net Cert.Sage.meanDiv x0 x1 x2 x3 x4 x5 x6 := by
  rw [readout, refFc_eq, o0, o1, o2]; rfl

end Cert.Sage.Ref

end
-- ==== Proof.lean ====
/-
  Three layers of neighbour-mean aggregation with a linear read-out, as four blocked kernels among host gathers and
  scatters, against the same network written with whole-array operations: equal results over the extended reals.

  Both programs compute, per layer, the aggregate of the incoming features over the edges (a gather of source rows and
  an accumulating scatter at the destination rows) and max(in-degree, 1); neither is ever opened, both programs share
  them as arrays.  The kernel program scales the aggregate by the reciprocal 1 / max(degree, 1) and feeds the mean, the
  features, a pair of weights and a bias to a kernel that works on blocks of 5000 rows; the reference divides the
  aggregate by max(degree, 1) and uses whole matrix products.  The two means agree because max(degree, 1) ≥ 1 is never
  zero (g · (1/M) = g / M for every extended real g once M ≠ 0); a layer is row-wise, so the blocked kernel's output
  array is the layer of the whole arrays; and the read-out over the three outputs joined into 384 columns is the sum of
  the three 128-column read-outs against the three bands of the stacked weight, a regrouping of one finite sum.
  No step needs an input to be finite.

  The idealization rewrote nothing, so the kernel's idealization is its own text read over the extended reals.
-/
import proofs.«174320_j8134668058764_1_alg».proof.Defs
import proofs.«174320_j8134668058764_1_alg».proof.Proof.Gen.Kernel
import proofs.«174320_j8134668058764_1_alg».proof.Proof.Gen.Kernel.Skeleton
import proofs.«174320_j8134668058764_1_alg».proof.Proof.Gen.Kernel.Launch
import proofs.«174320_j8134668058764_1_alg».proof.Proof.Gen.Kernel.Points
import proofs.«174320_j8134668058764_1_alg».proof.Proof.Gen.Kernel.Frame
import proofs.«174320_j8134668058764_1_alg».proof.Proof.Gen.KernelIdeal
import proofs.«174320_j8134668058764_1_alg».proof.Proof.Gen.KernelIdeal.Skeleton
import proofs.«174320_j8134668058764_1_alg».proof.Proof.Gen.KernelIdeal.Launch
import proofs.«174320_j8134668058764_1_alg».proof.Proof.Gen.KernelIdeal.Points
import proofs.«174320_j8134668058764_1_alg».proof.Proof.Gen.KernelIdeal.Frame
import proofs.«174320_j8134668058764_1_alg».proof.Proof.Gen.ReferenceIdeal
import proofs.«174320_j8134668058764_1_alg».proof.Proof.Gen.Pre_finite_inputs
import proofs.«174320_j8134668058764_1_alg».proof.Proof.Gen.ReferenceIdeal.Run
import proofs.«174320_j8134668058764_1_alg».proof.Proof.Gen.ReferenceIdeal.Read
import proofs.«174320_j8134668058764_1_alg».proof.Proof.SageRun
import proofs.«174320_j8134668058764_1_alg».proof.Proof.SageKernelValue
import proofs.«174320_j8134668058764_1_alg».proof.Proof.SageRefValue
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_k : Cert.frame_Kernel := fun m ρ _ => Cert.Kernel.Gen.frame m ρ

/-- The kernel program over the extended reals runs and keeps its arguments. -/
theorem frame_ki : Cert.frame_KernelIdeal := fun m ρ _ => Cert.KernelIdeal.Gen.frame m ρ

/-- The reference runs and keeps its arguments: its run, the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten. -/
theorem preserves : Cert.preserves_Kernel_KernelIdeal := trivial

/-- Both programs end at the network of the argument arrays; the mean as a product and as a quotient are one array. -/
theorem algebraic : Cert.algebraic_KernelIdeal_ReferenceIdeal := by
  intro m ρ m' ρ' _ hagree
  refine ⟨fun c => Cert.Sage.net Cert.Sage.meanMul (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono (fun r h c => ⟨(h c).1.trans (Cert.Sage.KV.value m ρ c), (h c).2⟩)
      (Cert.Sage.Run.run_value (F := Ideal) m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v104_eq, Cert.Sage.Ref.value, (hagree c).1, (hagree c).2.1, (hagree c).2.2.1,
      (hagree c).2.2.2.1, (hagree c).2.2.2.2.1, (hagree c).2.2.2.2.2.1, (hagree c).2.2.2.2.2.2]
    exact (Cert.Sage.net_mean _ _ _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
